-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩
abbrev S2x8x2048 : Shape := ⟨3, ![2, 8, 2048]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  reducesTo_S2x8x2048x64_S2x8x2048_d3 : S2x8x2048x64.ReducesTo [3] S2x8x2048
  bcast_S_S2x8x2048 : S_.BroadcastsInDim S2x8x2048 (![] : Fin 0 → Fin S2x8x2048.rank)
  reducesTo_S2x8x2048_S_d0_1_2 : S2x8x2048.ReducesTo [0, 1, 2] S_

variable [Facts]

def fn_part1 {F : FTy → Type} [FloatOps F] (main_arg1 : FVec F S2x8x2048x64 .f32) (main_v13 : IVec S_ 1) (main_v15 : FVec F S2x8x2048 .f32) (main_cst_5 : FVec F S_ .f32) : IVec S_ 1 :=
  let main_v16 : FVec F S2x8x2048 .f32 := broadcastInDim S2x8x2048 ![] bcast_S_S2x8x2048 main_cst_5
  let main_v17 : IVec S2x8x2048 1 := cmpf .ogt main_v15 main_v16
  let main_c_6 : IVec S_ 1 := constantI S_ 1 1#1
  let main_v18 : IVec S_ 1 := (fun x v => Host.reduce IntOp.andi x v reducesTo_S2x8x2048_S_d0_1_2 h_S_) main_v17 main_c_6
  let main_v19 : IVec S_ 1 := andi main_v13 main_v18
  let main_v20 : FVec F S2x8x2048x64 .f32 := mulf main_arg1 main_arg1
  let main_cst_7 : FVec F S_ .f32 := constant S_ .f32 0x00000000#32
  let main_v21 : FVec F S2x8x2048 .f32 := (fun x v => Host.reduceAdd x v reducesTo_S2x8x2048x64_S2x8x2048_d3 h_S_) main_v20 main_cst_7
  let main_cst_8 : FVec F S_ .f32 := constant S_ .f32 0x00000000#32
  let main_v22 : FVec F S2x8x2048 .f32 := broadcastInDim S2x8x2048 ![] bcast_S_S2x8x2048 main_cst_8
  let main_v23 : IVec S2x8x2048 1 := cmpf .ogt main_v21 main_v22
  let main_c_9 : IVec S_ 1 := constantI S_ 1 1#1
  let main_v24 : IVec S_ 1 := (fun x v => Host.reduce IntOp.andi x v reducesTo_S2x8x2048_S_d0_1_2 h_S_) main_v23 main_c_9
  let main_v25 : IVec S_ 1 := andi main_v19 main_v24
  main_v25

def fn {F : FTy → Type} [FloatOps F] (main_arg0 : FVec F S2x8x2048x64 .f32) (main_arg1 : FVec F S2x8x2048x64 .f32) (main_arg2 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2x8x2048x64 .f32 := mulf main_arg0 main_arg0
  let main_cst_4 : FVec F S_ .f32 := constant S_ .f32 0x00000000#32
  let main_v15 : FVec F S2x8x2048 .f32 := (fun x v => Host.reduceAdd x v reducesTo_S2x8x2048x64_S2x8x2048_d3 h_S_) main_v14 main_cst_4
  let main_cst_5 : FVec F S_ .f32 := constant S_ .f32 0x00000000#32
  fn_part1 (F := F) main_arg1 main_v13 main_v15 main_cst_5
-- ==== Kernel.lean ====
abbrev S2x8x2048x64 : Shape := ⟨4, ![2, 8, 2048, 64]⟩
abbrev S16x2048x64 : Shape := ⟨3, ![16, 2048, 64]⟩
abbrev S1x2048x64 : Shape := ⟨3, ![1, 2048, 64]⟩
abbrev S1x256x64 : Shape := ⟨3, ![1, 256, 64]⟩
abbrev S256x64 : Shape := ⟨2, ![256, 64]⟩
abbrev S2048x64 : Shape := ⟨2, ![2048, 64]⟩
abbrev S256 : Shape := ⟨1, ![256]⟩
abbrev S2048 : Shape := ⟨1, ![2048]⟩
abbrev S256x1 : Shape := ⟨2, ![256, 1]⟩
abbrev S2048x1 : Shape := ⟨2, ![2048, 1]⟩
abbrev S256x2048 : Shape := ⟨2, ![256, 2048]⟩
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S2x8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x8x2048x64_S16x2048x64 : S2x8x2048x64.ShapeCasts S16x2048x64
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x64_S256 : S256x64.Reduces [1] S256
  reduces_S2048x64_S2048 : S2048x64.Reduces [1] S2048
  shapeCasts_S256_S256x1 : S256.ShapeCasts S256x1
  broadcasts_S256x1_S256x64 : S256x1.Broadcasts S256x64
  shapeCasts_S2048_S2048x1 : S2048.ShapeCasts S2048x1
  broadcasts_S2048x1_S2048x64 : S2048x1.Broadcasts S2048x64
  bitsLt_bf16_f32 : FTy.bits .bf16 < FTy.bits .f32
  shapeCasts_S2048_S1x2048 : S2048.ShapeCasts S1x2048
  broadcasts_S1x2048_S256x2048 : S1x2048.Broadcasts S256x2048
  broadcasts_S256x1_S256x2048 : S256x1.Broadcasts S256x2048
  reduces_S256x2048_S256 : S256x2048.Reduces [1] S256
  inb_S1x256x64_S1x256x64_0_0_0 : ∀ a, (![0, 0, 0] : Fin 3 → Nat) a + S1x256x64.size a ≤ S1x256x64.size a
  shapeCasts_S256x64_S1x256x64 : S256x64.ShapeCasts S1x256x64
  shapeCasts_S16x2048x64_S2x8x2048x64 : S16x2048x64.ShapeCasts S2x8x2048x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S_ : Shape := ⟨0, ![]⟩
abbrev S2x8x2048 : Shape := ⟨3, ![2, 8, 2048]⟩
abbrev S2x8x2048x2048 : Shape := ⟨4, ![2, 8, 2048, 2048]⟩
abbrev S2x8x2048x1 : Shape := ⟨4, ![2, 8, 2048, 1]⟩
abbrev S2x8x1x2048 : Shape := ⟨4, ![2, 8, 1, 2048]⟩

abbrev nBuf : Space → Nat
  | .hbm => 119
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8x2048x64, .f32⟩
  | .hbm, ⟨8, _⟩ => ⟨S_, .f32⟩
  | .hbm, ⟨9, _⟩ => ⟨S2x8x2048, .f32⟩
  | .hbm, ⟨10, _⟩ => ⟨S2x8x2048x64, .f32⟩
  | .hbm, ⟨11, _⟩ => ⟨S_, .f32⟩
  | .hbm, ⟨12, _⟩ => ⟨S2x8x2048, .f32⟩
  | .hbm, ⟨13, _⟩ => ⟨S2x8x2048x2048, .f32⟩
  | .hbm, ⟨14, _⟩ => ⟨S2x8x2048x1, .f32⟩
  | .hbm, ⟨15, _⟩ => ⟨S2x8x1x2048, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x64, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x1, .f32⟩
  | .hbm, ⟨36, _⟩ => ⟨S2x8x2048x64, .f32⟩
  | .hbm, ⟨37, _⟩ => ⟨S2x8x2048x64, .f32⟩
  | .hbm, ⟨38, _⟩ => ⟨S2x8x2048x64, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x1, .f32⟩
  | .hbm, ⟨43, _⟩ => ⟨S2x8x2048x64, .f32⟩
  | .hbm, ⟨44, _⟩ => ⟨S2x8x2048x64, .f32⟩
  | .hbm, ⟨45, _⟩ => ⟨S2x8x2048x2048, .f32⟩
  | .hbm, ⟨46, _⟩ => ⟨S_, .f32⟩
  | .hbm, ⟨47, _⟩ => ⟨S2x8x2048x2048, .f32⟩
  | .hbm, ⟨48, _⟩ => ⟨S2x8x2048x2048, .f32⟩
  | .hbm, ⟨49, _⟩ => ⟨S_, .f32⟩
  | .hbm, ⟨50, _⟩ => ⟨S2x8x2048x2048, .f32⟩
  | .hbm, ⟨51, _⟩ => ⟨S2x8x2048x2048, .f32⟩
  | .hbm, ⟨52, _⟩ => ⟨S_, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S_, .f32⟩
  | .hbm, ⟨57, _⟩ => ⟨S2x8x2048x2048, .f32⟩
  | .hbm, ⟨58, _⟩ => ⟨S2x8x2048x2048, .f32⟩
  | .hbm, ⟨59, _⟩ => ⟨S_, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S_, .f32⟩
  | .hbm, ⟨65, _⟩ => ⟨S2x8x2048x2048, .f32⟩
  | .hbm, ⟨66, _⟩ => ⟨S2x8x2048x2048, .f32⟩
  | .hbm, ⟨67, _⟩ => ⟨S_, .f32⟩
  | .hbm, ⟨68, _⟩ => ⟨S_, .f32⟩
  | .hbm, ⟨69, _⟩ => ⟨S2x8x2048x2048, .f32⟩
  | .hbm, ⟨70, _⟩ => ⟨S2x8x2048x2048, .f32⟩
  | .hbm, ⟨71, _⟩ => ⟨S2x8x2048x64, .f32⟩
  | .hbm, ⟨72, _⟩ => ⟨S2x8x2048x64, .f32⟩
  | .hbm, ⟨73, _⟩ => ⟨S_, .f32⟩
  | .hbm, ⟨74, _⟩ => ⟨S2x8x2048x64, .f32⟩
  | .hbm, ⟨75, _⟩ => ⟨S2x8x2048x64, .f32⟩
  | .hbm, ⟨76, _⟩ => ⟨S_, .f32⟩
  | .hbm, ⟨77, _⟩ => ⟨S2x8x2048x64, .f32⟩
  | .hbm, ⟨78, _⟩ => ⟨S2x8x2048x64, .f32⟩
  | .hbm, ⟨79, _⟩ => ⟨S2x8x2048x64, .f32⟩
  | .hbm, ⟨80, _⟩ => ⟨S2x8x2048x64, .f32⟩
  | .hbm, ⟨81, _⟩ => ⟨S_, .f32⟩
  | .hbm, ⟨82, _⟩ => ⟨S2x8x2048x64, .f32⟩
  | .hbm, ⟨83, _⟩ => ⟨S2x8x2048x64, .f32⟩
  | .hbm, ⟨84, _⟩ => ⟨S_, .f32⟩
  | .hbm, ⟨85, _⟩ => ⟨S2x8x2048x64, .f32⟩
  | .hbm, ⟨86, _⟩ => ⟨S2x8x2048x64, .f32⟩
  | .hbm, ⟨87, _⟩ => ⟨S2x8x2048x2048, .f32⟩
  | .hbm, ⟨88, _⟩ => ⟨S_, .f32⟩
  | .hbm, ⟨89, _⟩ => ⟨S2x8x2048x64, .f32⟩
  | .hbm, ⟨90, _⟩ => ⟨S2x8x2048x64, .f32⟩
  | .hbm, ⟨91, _⟩ => ⟨S_, .f32⟩
  | .hbm, ⟨92, _⟩ => ⟨S2x8x2048x64, .f32⟩
  | .hbm, ⟨93, _⟩ => ⟨S2x8x2048x64, .f32⟩
  | .hbm, ⟨94, _⟩ => ⟨S2x8x2048x2048, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S2x8x2048x2048, .f32⟩
  | .hbm, ⟨99, _⟩ => ⟨S2x8x2048x2048, .f32⟩
  | .hbm, ⟨100, _⟩ => ⟨S2x8x2048x1, .f32⟩
  | .hbm, ⟨101, _⟩ => ⟨S2x8x1x2048, .f32⟩
  | .hbm, ⟨102, _⟩ => ⟨S2x8x2048x2048, .f32⟩
  | .hbm, ⟨103, _⟩ => ⟨S2x8x2048x2048, .f32⟩
  | .hbm, ⟨104, _⟩ => ⟨S2x8x2048x2048, .f32⟩
  | .hbm, ⟨105, _⟩ => ⟨S2x8x2048x2048, .f32⟩
  | .hbm, ⟨106, _⟩ => ⟨S2x8x2048x2048, .f32⟩
  | .hbm, ⟨107, _⟩ => ⟨S2x8x2048x2048, .f32⟩
  | .hbm, ⟨108, _⟩ => ⟨S2x8x2048x2048, .f32⟩
  | .hbm, ⟨109, _⟩ => ⟨S_, .f32⟩
  | .hbm, ⟨110, _⟩ => ⟨S2x8x2048, .f32⟩
  | .hbm, ⟨111, _⟩ => ⟨S2x8x2048x1, .f32⟩
  | .hbm, ⟨112, _⟩ => ⟨S2x8x2048x1, .f32⟩
  | .hbm, ⟨113, _⟩ => ⟨S_, .f32⟩
  | .hbm, ⟨114, _⟩ => ⟨S2x8x2048x1, .f32⟩
  | .hbm, ⟨115, _⟩ => ⟨S2x8x2048x1, .f32⟩
  | .hbm, ⟨116, _⟩ => ⟨S2x8x2048x2048, .f32⟩
  | .hbm, ⟨117, _⟩ => ⟨S2x8x2048x2048, .f32⟩
  | .hbm, ⟨118, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_16 : Ref sig .tc := ⟨.hbm, 88, rfl⟩
abbrev main_v60 : Ref sig .tc := ⟨.hbm, 89, rfl⟩
abbrev main_v61 : Ref sig .tc := ⟨.hbm, 90, rfl⟩
abbrev main_cst_17 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  reducesTo_S2x8x2048x64_S2x8x2048_d3 : S2x8x2048x64.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S2x8x2048_S2x8x1x2048_0_1_3 : S2x8x2048.BroadcastsInDim S2x8x1x2048 (![0, 1, 3] : Fin 3 → Fin S2x8x1x2048.rank)
  bcast_S2x8x2048x1_S2x8x2048x2048_0_1_2_3 : S2x8x2048x1.BroadcastsInDim S2x8x2048x2048 (![0, 1, 2, 3] : Fin 4 → Fin S2x8x2048x2048.rank)
  bcast_S2x8x1x2048_S2x8x2048x2048_0_1_2_3 : S2x8x1x2048.BroadcastsInDim S2x8x2048x2048 (![0, 1, 2, 3] : Fin 4 → Fin S2x8x2048x2048.rank)
  bcast_S_S2x8x2048x2048 : S_.BroadcastsInDim S2x8x2048x2048 (![] : Fin 0 → Fin S2x8x2048x2048.rank)
  transposes_S2x8x2048x2048_S2x8x2048x2048_0_1_3_2 : S2x8x2048x2048.Transposes [0, 1, 3, 2] S2x8x2048x2048
  bcast_S2x8x2048x1_S2x8x2048x64_0_1_2_3 : S2x8x2048x1.BroadcastsInDim S2x8x2048x64 (![0, 1, 2, 3] : Fin 4 → Fin S2x8x2048x64.rank)
  bcast_S_S2x8x2048x64 : S_.BroadcastsInDim S2x8x2048x64 (![] : Fin 0 → Fin S2x8x2048x64.rank)
  reducesTo_S2x8x2048x2048_S2x8x2048_d3 : S2x8x2048x2048.ReducesTo [3] S2x8x2048
  bcast_S_S2x8x2048x1 : S_.BroadcastsInDim S2x8x2048x1 (![] : Fin 0 → Fin S2x8x2048x1.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.Spec.lean ====
/-
  The mathematics of one attention head, as functions on the extended reals.

  A head has 2048 rows of 64 features for each of query, keys and values. For rows `q`, `k`:

    score q k = (∑ d, σ(qn q d) · σ(kn k d)) · exp (− √(max (|Q k|² + |K q|² − 2·⟨K q, Q k⟩) 0) / 16)
              + (∑ d, (1 − σ(qn q d)) · (1 − σ(kn k d))) · exp (−2 · sin² (π · √(max (2 − 2·⟨qn q, kn k⟩) 0) / 1) / 8)
              + (|Q q|² + |K k|²) / 16

  where `qn`, `kn` are the rows divided by their Euclidean norms and σ is the logistic function; the result row is
  the score row divided by `max (its Euclidean norm) ε` and multiplied into the values.

  The two programs spell five ingredients differently: the normalised rows (`x · s^(-1/2)` against `x / √s`), the
  negation (`0 − x` against `−x`), the divisor 16 (a literal against `2 · √64`), the factor 1/8 (a literal product
  against a quotient by `√64`) and the order of the factors inside the cross inner product. `score` takes these as
  parameters; the laws at the end show that both spellings give the same parameters, the normalised rows under the
  hypothesis that every row has a positive sum of squares.
-/
import Idealize.ShloMosaic.PureOps.Ideal
import Idealize.ShloMosaic.PureOps.Ideal.Laws
import Idealize.ShloMosaic.Lib.ValueIdx

noncomputable section

namespace Cert.Attn

open Idealize.ShloMosaic

/-- The rows of one head. -/
abbrev Rows := Fin 2048 → Fin 64 → EReal

/-- The literals both programs carry, as the extended reals their words denote. -/
abbrev zero : EReal := Ideal.ofBits .f32 0x00000000#32
abbrev one : EReal := Ideal.ofBits .f32 0x3F800000#32
abbrev two : EReal := Ideal.ofBits .f32 0x40000000#32
abbrev mtwo : EReal := Ideal.ofBits .f32 0xC0000000#32
abbrev pi32 : EReal := Ideal.ofBits .f32 0x40490FDB#32
abbrev eps : EReal := Ideal.ofBits .f32 0x2B8CBCCC#32
abbrev c16 : EReal := Ideal.ofBits .f32 0x41800000#32
abbrev c8inv : EReal := Ideal.ofBits .f32 0x3E000000#32
abbrev c64 : EReal := Ideal.ofBits .f32 0x42800000#32

/-- A row's sum of squares. -/
def sq (X : Rows) (r : Fin 2048) : EReal := ∑ d : Fin 64, X r d * X r d

/-- The inner product of two rows. -/
def dotRows (X Y : Rows) (q k : Fin 2048) : EReal := ∑ d : Fin 64, X q d * Y k d

/-- The score of rows `q`, `k` before the row normalisation (see the header). -/
def score (neg : EReal → EReal) (scale : EReal) (eighth : EReal → EReal) (cross : Fin 2048 → Fin 2048 → EReal)
    (q2 k2 : Fin 2048 → EReal) (qn kn : Rows) (q k : Fin 2048) : EReal :=
  ((∑ d : Fin 64, Ideal.logistic (qn q d) * Ideal.logistic (kn k d))
        * Ideal.exp (Ideal.div (neg (Ideal.sqrt (max ((q2 k + k2 q) - two * cross q k) zero))) scale)
      + (∑ d : Fin 64, (one - Ideal.logistic (qn q d)) * (one - Ideal.logistic (kn k d)))
        * Ideal.exp (eighth (mtwo *
            (Ideal.sin (Ideal.div (pi32 * Ideal.sqrt (max (two - two * dotRows qn kn q k) zero)) one)
              * Ideal.sin (Ideal.div (pi32 * Ideal.sqrt (max (two - two * dotRows qn kn q k) zero)) one)))))
    + Ideal.div (q2 q + k2 k) scale

/-- The result: each score row divided by `max (its Euclidean norm) ε`, times the values. -/
def attend (s : Fin 2048 → Fin 2048 → EReal) (V : Rows) (q : Fin 2048) (d : Fin 64) : EReal :=
  ∑ k : Fin 2048, Ideal.div (s q k) (max (Ideal.sqrt (∑ k' : Fin 2048, s q k' * s q k')) eps) * V k d

/-- One head as the kernel spells it. -/
def headK (Q K V : Rows) : Fin 2048 → Fin 64 → EReal :=
  attend (score (fun x => zero - x) c16 (fun y => y * c8inv) (fun q k => ∑ d : Fin 64, K q d * Q k d) (sq Q) (sq K)
    (fun r d => Q r d * Ideal.rsqrt (sq Q r)) (fun r d => K r d * Ideal.rsqrt (sq K r))) V

/-- One head as the reference spells it. -/
def headR (Q K V : Rows) : Fin 2048 → Fin 64 → EReal :=
  attend (score (fun x => -x) (two * Ideal.sqrt c64) (fun y => Ideal.div y (Ideal.sqrt c64))
    (fun q k => ∑ d : Fin 64, Q k d * K q d) (sq Q) (sq K)
    (fun r d => Ideal.div (Q r d) (Ideal.sqrt (sq Q r))) (fun r d => Ideal.div (K r d) (Ideal.sqrt (sq K r)))) V

/-! ## The laws joining the two spellings -/

theorem two_eq : two = ((2 : ℝ) : EReal) := by
  simp [Ideal.ofBits, Ideal.ieee, -EReal.coe_mul]; norm_num
theorem c16_eq : c16 = ((16 : ℝ) : EReal) := by
  simp [Ideal.ofBits, Ideal.ieee, -EReal.coe_mul]; norm_num
theorem c64_eq : c64 = ((64 : ℝ) : EReal) := by
  simp [Ideal.ofBits, Ideal.ieee, -EReal.coe_mul]; norm_num
theorem c8inv_eq : c8inv = ((1 / 8 : ℝ) : EReal) := by
  simp [Ideal.ofBits, Ideal.ieee, -EReal.coe_mul]; norm_num

/-- `√64 = 8`. -/
theorem sqrt_c64 : Ideal.sqrt c64 = ((8 : ℝ) : EReal) := by
  rw [c64_eq, Ideal.sqrt_coe, if_neg (by norm_num)]
  congr 1
  rw [show (64 : ℝ) = 8 * 8 by norm_num, Real.sqrt_mul_self (by norm_num)]

/-- `2 · √64 = 16`. -/
theorem scale_eq : two * Ideal.sqrt c64 = c16 := by
  rw [sqrt_c64, two_eq, c16_eq, ← EReal.coe_mul]; norm_num

/-- A quotient by `√64` is the product with `1/8`, on every extended real. -/
theorem eighth_eq : (fun y : EReal => Ideal.div y (Ideal.sqrt c64)) = fun y => y * c8inv := by
  funext y
  rw [sqrt_c64, c8inv_eq, Ideal.div_coe (by norm_num : (8 : ℝ) ≠ 0)]

/-- `0 − x = −x`. -/
theorem neg_eq : (fun x : EReal => zero - x) = fun x => -x := by
  funext x
  show Ideal.ofBits .f32 0x00000000#32 - x = -x
  rw [Ideal.ofBits_zero_f32, zero_sub]

/-- Off zero, `x · s^(-1/2) = x / √s` for every non-negative extended real `s` (at `s = ⊤` both are `0`). -/
theorem mul_rsqrt_eq_div_sqrt (x s : EReal) (hs : 0 < s) : x * Ideal.rsqrt s = Ideal.div x (Ideal.sqrt s) := by
  induction s using EReal.rec with
  | bot => exact absurd hs (by simp)
  | top =>
    show x * 0 = Ideal.div x ⊤
    rw [Ideal.div, if_neg (by simp), EReal.inv_top]
  | coe r =>
    have hr : 0 < r := by exact_mod_cast hs
    have hsq : 0 < Real.sqrt r := Real.sqrt_pos.mpr hr
    show x * (if r < 0 then ⊥ else if r = 0 then ⊤ else (((Real.sqrt r)⁻¹ : ℝ) : EReal))
      = Ideal.div x (if r < 0 then ⊥ else (Real.sqrt r : EReal))
    rw [if_neg (not_lt.mpr hr.le), if_neg hr.ne', if_neg (not_lt.mpr hr.le),
      Ideal.div_coe hsq.ne', one_div]

/-- The cross inner products agree: the factors commute. -/
theorem cross_eq (Q K : Rows) :
    (fun q k : Fin 2048 => ∑ d : Fin 64, K q d * Q k d) = fun q k => ∑ d : Fin 64, Q k d * K q d := by
  funext q k
  exact Finset.sum_congr rfl fun d _ => mul_comm _ _

/-- The two spellings of a head agree when every query row and every key row has a positive sum of squares. -/
theorem headK_eq_headR (Q K V : Rows) (hQ : ∀ r, 0 < sq Q r) (hK : ∀ r, 0 < sq K r) : headK Q K V = headR Q K V := by
  unfold headK headR
  rw [neg_eq, scale_eq, eighth_eq, cross_eq,
    show (fun r d => Q r d * Ideal.rsqrt (sq Q r)) = fun r d => Ideal.div (Q r d) (Ideal.sqrt (sq Q r)) from
      funext fun r => funext fun d => mul_rsqrt_eq_div_sqrt _ _ (hQ r),
    show (fun r d => K r d * Ideal.rsqrt (sq K r)) = fun r d => Ideal.div (K r d) (Ideal.sqrt (sq K r)) from
      funext fun r => funext fun d => mul_rsqrt_eq_div_sqrt _ _ (hK r)]

/-! ## The whole arrays: sixteen heads, laid out [2, 8, 2048, 64] -/

/-- The index type of a [2, 8, 2048, 64] array. -/
abbrev Idx4 := (⟨4, ![2, 8, 2048, 64]⟩ : Shape).Idx

/-- The rows of head `(b, h)` of a [2, 8, 2048, 64] array. -/
def rows4 (a : Idx4 → EReal) (b : Fin 2) (h : Fin 8) : Rows := fun r d => a (ValueIdx.ix4 b h r d)

/-- The result array as the kernel spells it: entry `(b, h, q, d)` is entry `(q, d)` of head `(b, h)`. -/
def resultK (a0 a1 a2 : Idx4 → EReal) : Idx4 → EReal := fun i =>
  headK (rows4 a0 (i 0) (i 1)) (rows4 a1 (i 0) (i 1)) (rows4 a2 (i 0) (i 1)) (i 2) (i 3)

/-- The result array as the reference spells it. -/
def resultR (a0 a1 a2 : Idx4 → EReal) : Idx4 → EReal := fun i =>
  headR (rows4 a0 (i 0) (i 1)) (rows4 a1 (i 0) (i 1)) (rows4 a2 (i 0) (i 1)) (i 2) (i 3)

/-- The two agree when every row of the first two arrays has a positive sum of squares. -/
theorem resultK_eq_resultR (a0 a1 a2 : Idx4 → EReal)
    (h0 : ∀ b h r, 0 < sq (rows4 a0 b h) r) (h1 : ∀ b h r, 0 < sq (rows4 a1 b h) r) :
    resultK a0 a1 a2 = resultR a0 a1 a2 := by
  funext i
  unfold resultK resultR
  rw [headK_eq_headR _ _ _ (h0 (i 0) (i 1)) (h1 (i 0) (i 1))]

end Cert.Attn

end
-- ==== Proof.Body.lean ====
/-
  What one grid point of the kernel writes, as a value.

  At grid point `i = (head, tile)` the body reads the head's three whole blocks (query, keys, values: 2048 rows of 64)
  and, from the query and key blocks, the 256 rows `256·tile …` (`tile`); everything it computes from them ends in ONE
  store that covers the output block, so what the output's staging buffer holds afterwards is that store's value
  (`bodyVal`): the composition of the body's pure terms applied to those loads. The statement holds at every float
  instance; the mathematics of the value is read at the ideal instance in the next module.
-/
import proofs.«166510_j82343112999027_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body
open Cert.KernelIdeal Cert.KernelIdeal.Gen

variable {F : FTy → Type} [FloatOps F]

/-- The zero offsets of a whole-block access, however they are spelt. -/
theorem hz3 : (![0, 0, 0] : Fin 3 → Nat) = fun _ => 0 := funext fun a => by fin_cases a <;> rfl

/-- The 256 rows of a head's block that grid point `i` works on: rows `256·i₁ …`. -/
def tile (i : grid0.Coords) (x : Vec F S1x2048x64 .f32) : Vec F S1x256x64 .f32 :=
  View.ld x (Rect.unit (s := S1x2048x64) (k0_off1 i) S1x256x64.size (k0_off1_inb i))

/-- What the body stores at grid point `i`, from the three heads' blocks. -/
def bodyVal (i : grid0.Coords) (x0 x1 x2 : Vec F S1x2048x64 .f32) : Vec F S1x256x64 .f32 :=
  k0_pay1 (k0_pay6 x2) (k0_pay7 (tile i x0)) (k0_pay10 x1)
    (k0_pay19 (k0_pay15 (tile i x0)) (k0_pay16 x1))
    (k0_pay20 (k0_pay8 (tile i x1)) (k0_pay9 x0) (k0_pay13 (tile i x0)) (k0_pay14 x1) (k0_pay17 (tile i x1)) (k0_pay18 x0))
    (k0_pay21 (k0_pay11 (tile i x0)) (k0_pay12 x1))

/-- The output's staging buffer after the body at point `i` holds `bodyVal`: the run's one covering store read back,
    its whole-block loads the blocks themselves and its two row-window loads the `tile`s. -/
theorem out_A (c : Dev nD) (i : grid0.Coords) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x64 .f32) (harg5 : arg5.IsWhole)
    (x0 : Vec F S1x2048x64 .f32) (x1 : Vec F S1x2048x64 .f32) (x2 : Vec F S1x2048x64 .f32) :
    out0_A_3 c i arg2 harg2 arg3 harg3 arg4 harg4 arg5 harg5 x0 x1 x2 = bodyVal i x0 x1 x2 := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz3]
  simp only [View.readAt_eq_ld, harg2.read_unread, harg3.read_unread, harg4.read_unread, View.ld_unit_zero (S := S1x2048x64) hz3]
  rfl

end Cert.KernelIdeal.Body
end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Pay.lean ====
/-
  The body's value at the ideal instance, entry by entry.

  Write `Q`, `K`, `V` for the rows of a head's query, key and value blocks and `o p` for the row of the head that
  row `p` of the point's 256-row tile is (`o p = 256·tile + p`). Every pure term of the body is read at an index:
  the casts between a block and its rows drop or add unit axes, a lane reduction is a sum over the 64 features (or over
  the 2048 keys), a product with a transposed operand is a sum over the contracted axis, and everything else is
  pointwise. Put together, entry `(p, d)` of what the body stores is entry `(o p, d)` of the head as the kernel
  spells it (`Cert.Attn.headK`).
-/
import proofs.«166510_j82343112999027_1_alg».proof.Proof.Spec
import proofs.«166510_j82343112999027_1_alg».proof.Proof.LibLayout
import proofs.«166510_j82343112999027_1_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Attn Cert.Attn.Layout

/-! ## Pointwise operations at an index -/

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl
theorem sin_apply {s : Shape} {φ : FTy} (a : FVec Ideal s φ) (i : s.Idx) : sin a i = Ideal.sin (a i) := rfl
theorem logistic_apply {s : Shape} {φ : FTy} (a : FVec Ideal s φ) (i : s.Idx) : logistic a i = Ideal.logistic (a i) := rfl
theorem scalar_ofBits (b : BitVec 32) : Scalar.ofBits (F := Ideal) .f32 b = Ideal.ofBits .f32 b := rfl

/-! ## The rows of a block -/

/-- The rows of a head's whole block. -/
def rowsB (x : Vec Ideal S1x2048x64 .f32) : Rows := fun r e => x (ix3 (0 : Fin 1) r e)
/-- The rows of a 256-row tile. -/
def rowsT (t : Vec Ideal S1x256x64 .f32) : Fin 256 → Fin 64 → EReal := fun p e => t (ix3 (0 : Fin 1) p e)

theorem pay2_apply (t : Vec Ideal S1x256x64 .f32) (p : Fin 256) (e : Fin 64) : k0_pay2 t (ix2 p e) = rowsT t p e :=
  shapeCast_1ab_ab_apply t _ p e
theorem pay3_apply (t : Vec Ideal S1x256x64 .f32) (p : Fin 256) (e : Fin 64) : k0_pay3 t (ix2 p e) = rowsT t p e :=
  shapeCast_1ab_ab_apply t _ p e
theorem pay4_apply (x : Vec Ideal S1x2048x64 .f32) (r : Fin 2048) (e : Fin 64) : k0_pay4 x (ix2 r e) = rowsB x r e :=
  shapeCast_1ab_ab_apply x _ r e
theorem pay5_apply (x : Vec Ideal S1x2048x64 .f32) (r : Fin 2048) (e : Fin 64) : k0_pay5 x (ix2 r e) = rowsB x r e :=
  shapeCast_1ab_ab_apply x _ r e
theorem pay6_apply (x : Vec Ideal S1x2048x64 .f32) (r : Fin 2048) (e : Fin 64) : k0_pay6 x (ix2 r e) = rowsB x r e :=
  shapeCast_1ab_ab_apply x _ r e

/-! ## Lane reductions are sums -/

theorem rowsum_256x64 (v : FVec Ideal S256x64 .f32) (p : Fin 256) :
    multiReduction .add [1] S256 v 0x00000000#32 reduces_S256x64_S256 (.inl rfl) rfl (ix1 p) = ∑ e : Fin 64, v (ix2 p e) :=
  (Ideal.multiReduction_add_single v 0x00000000#32 reduces_S256x64_S256 (.inl rfl) rfl (ix1 p)).trans
    (Finset.sum_congr rfl fun e _ => congrArg v (funext fun a => Fin.ext (by match a with | ⟨0, _⟩ => rfl | ⟨1, _⟩ => rfl)))

theorem rowsum_2048x64 (v : FVec Ideal S2048x64 .f32) (r : Fin 2048) :
    multiReduction .add [1] S2048 v 0x00000000#32 reduces_S2048x64_S2048 (.inl rfl) rfl (ix1 r) = ∑ e : Fin 64, v (ix2 r e) :=
  (Ideal.multiReduction_add_single v 0x00000000#32 reduces_S2048x64_S2048 (.inl rfl) rfl (ix1 r)).trans
    (Finset.sum_congr rfl fun e _ => congrArg v (funext fun a => Fin.ext (by match a with | ⟨0, _⟩ => rfl | ⟨1, _⟩ => rfl)))

theorem rowsum_256x2048 (v : FVec Ideal S256x2048 .f32) (p : Fin 256) :
    multiReduction .add [1] S256 v 0x00000000#32 reduces_S256x2048_S256 (.inl rfl) rfl (ix1 p) = ∑ k : Fin 2048, v (ix2 p k) :=
  (Ideal.multiReduction_add_single v 0x00000000#32 reduces_S256x2048_S256 (.inl rfl) rfl (ix1 p)).trans
    (Finset.sum_congr rfl fun k _ => congrArg v (funext fun a => Fin.ext (by match a with | ⟨0, _⟩ => rfl | ⟨1, _⟩ => rfl)))

/-! ## Products are sums over the contracted axis -/

theorem qk_lhs0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem qk_rhs0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- `l · rᵀ`: entry `(p, k)` is the sum over the 64 features of `l p e · r k e`. -/
theorem qk_apply {φ₁ φ₂ : FTy} (l : FVec Ideal S256x64 φ₁) (r : FVec Ideal S2048x64 φ₂) (p : Fin 256) (k : Fin 2048) :
    matmul dot_S256x64_S2048x64_S256x2048_1_1_0_0_n_n none l r (constant S256x2048 .f32 0x00000000#32) (ix2 p k)
      = ∑ e : Fin 64, l (ix2 p e) * r (ix2 k e) := by
  simp only [matmul]
  rw [Ideal.matmul_constant_zero_apply, ← Equiv.sum_comp (contrEquiv1 dot_S256x64_S2048x64_S256x2048_1_1_0_0_n_n 64 rfl rfl).symm]
  refine Finset.sum_congr rfl fun e _ => ?_
  have hk := contrEquiv1_symm_val dot_S256x64_S2048x64_S256x2048_1_1_0_0_n_n 64 rfl rfl e
  have el : dot_S256x64_S2048x64_S256x2048_1_1_0_0_n_n.lhsIdx (ix2 p k) ((contrEquiv1 dot_S256x64_S2048x64_S256x2048_1_1_0_0_n_n 64 rfl rfl).symm e) = ix2 p e := funext fun a => Fin.ext (by
    match a with
    | ⟨0, _⟩ => exact qk_lhs0 _ _
    | ⟨1, _⟩ => exact (qk_lhs1 _ _).trans hk)
  have er : dot_S256x64_S2048x64_S256x2048_1_1_0_0_n_n.rhsIdx (ix2 p k) ((contrEquiv1 dot_S256x64_S2048x64_S256x2048_1_1_0_0_n_n 64 rfl rfl).symm e) = ix2 k e := funext fun a => Fin.ext (by
    match a with
    | ⟨0, _⟩ => exact qk_rhs0 _ _
    | ⟨1, _⟩ => exact (qk_rhs1 _ _).trans hk)
  rw [el, er]

theorem av_lhs0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem av_lhs1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem av_rhs1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
theorem av_rhs0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q

/-- `l · r`: entry `(p, d)` is the sum over the 2048 keys of `l p k · r k d`. -/
theorem av_apply {φ₁ φ₂ : FTy} (l : FVec Ideal S256x2048 φ₁) (r : FVec Ideal S2048x64 φ₂) (p : Fin 256) (d : Fin 64) :
    matmul dot_S256x2048_S2048x64_S256x64_1_0_0_1_n_n none l r (constant S256x64 .f32 0x00000000#32) (ix2 p d)
      = ∑ k : Fin 2048, l (ix2 p k) * r (ix2 k d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p d) ((contrEquiv1 dot_S256x2048_S2048x64_S256x64_1_0_0_1_n_n 2048 rfl rfl).symm k) = ix2 p k := funext fun a => Fin.ext (by
    match a with
    | ⟨0, _⟩ => exact av_lhs0 _ _
    | ⟨1, _⟩ => exact (av_lhs1 _ _).trans hk)
  have er : dot_S256x2048_S2048x64_S256x64_1_0_0_1_n_n.rhsIdx (ix2 p d) ((contrEquiv1 dot_S256x2048_S2048x64_S256x64_1_0_0_1_n_n 2048 rfl rfl).symm k) = ix2 k d := funext fun a => Fin.ext (by
    match a with
    | ⟨0, _⟩ => exact (av_rhs0 _ _).trans hk
    | ⟨1, _⟩ => exact av_rhs1 _ _)
  rw [el, er]

/-! ## A per-row or per-key vector spread over a matrix -/

theorem col64_apply (v : FVec Ideal S256 .f32) (p : Fin 256) (e : Fin 64) :
    broadcastTo S256x64 (shapeCast S256x1 v shapeCasts_S256_S256x1) broadcasts_S256x1_S256x64 (ix2 p e) = v (ix1 p) :=
  (broadcastTo_a1_ab_apply _ _ p e).trans (shapeCast_a_a1_apply v _ p 0)

theorem col64'_apply (v : FVec Ideal S2048 .f32) (r : Fin 2048) (e : Fin 64) :
    broadcastTo S2048x64 (shapeCast S2048x1 v shapeCasts_S2048_S2048x1) broadcasts_S2048x1_S2048x64 (ix2 r e) = v (ix1 r) :=
  (broadcastTo_a1_ab_apply _ _ r e).trans (shapeCast_a_a1_apply v _ r 0)

theorem colK_apply (v : FVec Ideal S256 .f32) (p : Fin 256) (k : Fin 2048) :
    broadcastTo S256x2048 (shapeCast S256x1 v shapeCasts_S256_S256x1) broadcasts_S256x1_S256x2048 (ix2 p k) = v (ix1 p) :=
  (broadcastTo_a1_ab_apply _ _ p k).trans (shapeCast_a_a1_apply v _ p 0)

theorem rowK_apply (v : FVec Ideal S2048 .f32) (p : Fin 256) (k : Fin 2048) :
    broadcastTo S256x2048 (shapeCast S1x2048 v shapeCasts_S2048_S1x2048) broadcasts_S1x2048_S256x2048 (ix2 p k) = v (ix1 k) :=
  (broadcastTo_1b_ab_apply _ _ p k).trans (shapeCast_a_1a_apply v _ 0 k)

/-! ## The body's terms, one at a time -/

theorem pay7_apply (t : Vec Ideal S1x256x64 .f32) (p : Fin 256) :
    k0_pay7 t (ix1 p) = ∑ e : Fin 64, rowsT t p e * rowsT t p e := by
  unfold k0_pay7
  refine (rowsum_256x64 _ p).trans (Finset.sum_congr rfl fun e _ => ?_)
  rw [mulf_apply, pay2_apply]

theorem pay8_apply (t : Vec Ideal S1x256x64 .f32) (p : Fin 256) :
    k0_pay8 t (ix1 p) = ∑ e : Fin 64, rowsT t p e * rowsT t p e := by
  unfold k0_pay8
  refine (rowsum_256x64 _ p).trans (Finset.sum_congr rfl fun e _ => ?_)
  rw [mulf_apply, pay3_apply]

theorem pay9_apply (x : Vec Ideal S1x2048x64 .f32) (r : Fin 2048) : k0_pay9 x (ix1 r) = Cert.Attn.sq (rowsB x) r := by
  unfold k0_pay9 Cert.Attn.sq
  refine (rowsum_2048x64 _ r).trans (Finset.sum_congr rfl fun e _ => ?_)
  rw [mulf_apply, pay4_apply]

theorem pay10_apply (x : Vec Ideal S1x2048x64 .f32) (r : Fin 2048) : k0_pay10 x (ix1 r) = Cert.Attn.sq (rowsB x) r := by
  unfold k0_pay10 Cert.Attn.sq
  refine (rowsum_2048x64 _ r).trans (Finset.sum_congr rfl fun e _ => ?_)
  rw [mulf_apply, pay5_apply]

/-- A tile row times the inverse square root of its sum of squares. -/
theorem pay11_apply (t : Vec Ideal S1x256x64 .f32) (p : Fin 256) (e : Fin 64) :
    k0_pay11 t (ix2 p e) = rowsT t p e * Ideal.rsqrt (∑ e' : Fin 64, rowsT t p e' * rowsT t p e') := by
  unfold k0_pay11
  show k0_pay2 t (ix2 p e)
    * (broadcastTo S256x64 (shapeCast S256x1 (rsqrt (k0_pay7 t)) shapeCasts_S256_S256x1) broadcasts_S256x1_S256x64) (ix2 p e) = _
  rw [pay2_apply, col64_apply, rsqrt_apply, pay7_apply]

/-- A block row times the inverse square root of its sum of squares. -/
theorem pay12_apply (x : Vec Ideal S1x2048x64 .f32) (r : Fin 2048) (e : Fin 64) :
    k0_pay12 x (ix2 r e) = rowsB x r e * Ideal.rsqrt (Cert.Attn.sq (rowsB x) r) := by
  unfold k0_pay12
  show k0_pay5 x (ix2 r e)
    * (broadcastTo S2048x64 (shapeCast S2048x1 (rsqrt (k0_pay10 x)) shapeCasts_S2048_S2048x1) broadcasts_S2048x1_S2048x64) (ix2 r e) = _
  rw [pay5_apply, col64'_apply, rsqrt_apply, pay10_apply]

theorem pay13_apply (t : Vec Ideal S1x256x64 .f32) (p : Fin 256) (e : Fin 64) :
    k0_pay13 t (ix2 p e) = Ideal.logistic (k0_pay11 t (ix2 p e)) := rfl
theorem pay14_apply (x : Vec Ideal S1x2048x64 .f32) (r : Fin 2048) (e : Fin 64) :
    k0_pay14 x (ix2 r e) = Ideal.logistic (k0_pay12 x (ix2 r e)) := rfl
theorem pay15_apply (t : Vec Ideal S1x256x64 .f32) (p : Fin 256) (e : Fin 64) :
    k0_pay15 t (ix2 p e) = one - Ideal.logistic (k0_pay11 t (ix2 p e)) := rfl
theorem pay16_apply (x : Vec Ideal S1x2048x64 .f32) (r : Fin 2048) (e : Fin 64) :
    k0_pay16 x (ix2 r e) = one - Ideal.logistic (k0_pay12 x (ix2 r e)) := rfl
theorem pay17_apply (t : Vec Ideal S1x256x64 .f32) (p : Fin 256) (e : Fin 64) : k0_pay17 t (ix2 p e) = rowsT t p e :=
  pay3_apply t p e
theorem pay18_apply (x : Vec Ideal S1x2048x64 .f32) (r : Fin 2048) (e : Fin 64) : k0_pay18 x (ix2 r e) = rowsB x r e :=
  pay4_apply x r e

/-- The second gate: the inner product of two rows of complements. -/
theorem pay19_apply (v33 : FVec Ideal S256x64 .f32) (v35 : FVec Ideal S2048x64 .f32) (p : Fin 256) (k : Fin 2048) :
    k0_pay19 v33 v35 (ix2 p k) = ∑ e : Fin 64, v33 (ix2 p e) * v35 (ix2 k e) := by
  unfold k0_pay19
  exact qk_apply (truncf .bf16 v33) (truncf .bf16 v35) p k

/-- The first gate times the exponential of the scaled negative distance. -/
theorem pay20_apply (v17 : FVec Ideal S256 .f32) (v19 : FVec Ideal S2048 .f32) (v30 : FVec Ideal S256x64 .f32)
    (v31 : FVec Ideal S2048x64 .f32) (v36 : FVec Ideal S256x64 .bf16) (v37 : FVec Ideal S2048x64 .bf16) (p : Fin 256) (k : Fin 2048) :
    k0_pay20 v17 v19 v30 v31 v36 v37 (ix2 p k)
      = (∑ e : Fin 64, v30 (ix2 p e) * v31 (ix2 k e))
        * Ideal.exp (Ideal.div (zero - Ideal.sqrt (max ((v19 (ix1 k) + v17 (ix1 p)) - two * ∑ e : Fin 64, v36 (ix2 p e) * v37 (ix2 k e)) zero)) c16) := by
  unfold k0_pay20
  show (matmul dot_S256x64_S2048x64_S256x2048_1_1_0_0_n_n none (truncf .bf16 v30) (truncf .bf16 v31) (constant S256x2048 .f32 0x00000000#32)) (ix2 p k)
      * Ideal.exp (Ideal.div (zero - Ideal.sqrt (max
          (((broadcastTo S256x2048 (shapeCast S1x2048 v19 shapeCasts_S2048_S1x2048) broadcasts_S1x2048_S256x2048) (ix2 p k)
            + (broadcastTo S256x2048 (shapeCast S256x1 v17 shapeCasts_S256_S256x1) broadcasts_S256x1_S256x2048) (ix2 p k))
            - two * (matmul dot_S256x64_S2048x64_S256x2048_1_1_0_0_n_n none v36 v37 (constant S256x2048 .f32 0x00000000#32)) (ix2 p k)) zero)) c16) = _
  rw [qk_apply, qk_apply, rowK_apply, colK_apply]
  rfl

/-- The exponential of the periodic term. -/
theorem pay21_apply (v25 : FVec Ideal S256x64 .f32) (v29 : FVec Ideal S2048x64 .f32) (p : Fin 256) (k : Fin 2048) :
    k0_pay21 v25 v29 (ix2 p k)
      = Ideal.exp ((mtwo *
          (Ideal.sin (Ideal.div (pi32 * Ideal.sqrt (max (two - two * ∑ e : Fin 64, v25 (ix2 p e) * v29 (ix2 k e)) zero)) one)
            * Ideal.sin (Ideal.div (pi32 * Ideal.sqrt (max (two - two * ∑ e : Fin 64, v25 (ix2 p e) * v29 (ix2 k e)) zero)) one))) * c8inv) := by
  unfold k0_pay21
  show Ideal.exp ((mtwo *
          (Ideal.sin (Ideal.div (pi32 * Ideal.sqrt (max (two - two * (matmul dot_S256x64_S2048x64_S256x2048_1_1_0_0_n_n none (truncf .bf16 v25) (truncf .bf16 v29) (constant S256x2048 .f32 0x00000000#32)) (ix2 p k)) zero)) one)
            * Ideal.sin (Ideal.div (pi32 * Ideal.sqrt (max (two - two * (matmul dot_S256x64_S2048x64_S256x2048_1_1_0_0_n_n none (truncf .bf16 v25) (truncf .bf16 v29) (constant S256x2048 .f32 0x00000000#32)) (ix2 p k)) zero)) one))) * c8inv) = _
  rw [qk_apply]
  rfl

/-! ## The score matrix, its row norms, and the result -/

/-- The score matrix of a tile before the row normalisation, as the body forms it from the two gates, the two
    exponentials and the squared norms. -/
def scoreMat (v15 : FVec Ideal S256 .f32) (v21 : FVec Ideal S2048 .f32) (v47 v81 v82 : FVec Ideal S256x2048 .f32) :
    FVec Ideal S256x2048 .f32 :=
  addf (addf v81 (mulf v47 v82))
    (divf (addf (broadcastTo S256x2048 (shapeCast S256x1 v15 shapeCasts_S256_S256x1) broadcasts_S256x1_S256x2048)
        (broadcastTo S256x2048 (shapeCast S1x2048 v21 shapeCasts_S2048_S1x2048) broadcasts_S1x2048_S256x2048))
      (broadcast S256x2048 (Scalar.ofBits .f32 0x41800000#32)))

theorem scoreMat_apply (v15 : FVec Ideal S256 .f32) (v21 : FVec Ideal S2048 .f32) (v47 v81 v82 : FVec Ideal S256x2048 .f32)
    (p : Fin 256) (k : Fin 2048) :
    scoreMat v15 v21 v47 v81 v82 (ix2 p k)
      = (v81 (ix2 p k) + v47 (ix2 p k) * v82 (ix2 p k)) + Ideal.div (v15 (ix1 p) + v21 (ix1 k)) c16 := by
  show (v81 (ix2 p k) + v47 (ix2 p k) * v82 (ix2 p k))
      + Ideal.div ((broadcastTo S256x2048 (shapeCast S256x1 v15 shapeCasts_S256_S256x1) broadcasts_S256x1_S256x2048) (ix2 p k)
        + (broadcastTo S256x2048 (shapeCast S1x2048 v21 shapeCasts_S2048_S1x2048) broadcasts_S1x2048_S256x2048) (ix2 p k)) c16 = _
  rw [colK_apply, rowK_apply]

/-- The Euclidean norms of a matrix's rows, clamped below by ε, as a column. -/
def normCol (S : FVec Ideal S256x2048 .f32) : FVec Ideal S256x1 .f32 :=
  maximumf (sqrt (shapeCast S256x1 (multiReduction .add [1] S256 (mulf S S) 0x00000000#32 reduces_S256x2048_S256 (.inl rfl) rfl) shapeCasts_S256_S256x1))
    (broadcast S256x1 (Scalar.ofBits .f32 0x2B8CBCCC#32))

theorem normCol_apply (S : FVec Ideal S256x2048 .f32) (p : Fin 256) (u : Fin 1) :
    normCol S (ix2 p u) = max (Ideal.sqrt (∑ k : Fin 2048, S (ix2 p k) * S (ix2 p k))) eps := by
  show max (Ideal.sqrt ((shapeCast S256x1 (multiReduction .add [1] S256 (mulf S S) 0x00000000#32 reduces_S256x2048_S256 (.inl rfl) rfl) shapeCasts_S256_S256x1) (ix2 p u))) eps = _
  rw [shapeCast_a_a1_apply, rowsum_256x2048]
  rfl

/-- The stored value is the normalised score matrix times the values, with a unit axis in front. -/
theorem pay1_eq (v13 : FVec Ideal S2048x64 .f32) (v15 : FVec Ideal S256 .f32) (v21 : FVec Ideal S2048 .f32) (v47 v81 v82 : FVec Ideal S256x2048 .f32) :
    k0_pay1 v13 v15 v21 v47 v81 v82
      = shapeCast S1x256x64
          (matmul dot_S256x2048_S2048x64_S256x64_1_0_0_1_n_n none
            (truncf .bf16 (divf (scoreMat v15 v21 v47 v81 v82)
              (broadcastTo S256x2048 (normCol (scoreMat v15 v21 v47 v81 v82)) broadcasts_S256x1_S256x2048)))
            (truncf .bf16 v13) (constant S256x64 .f32 0x00000000#32))
          shapeCasts_S256x64_S1x256x64 := rfl

theorem pay1_apply (v13 : FVec Ideal S2048x64 .f32) (v15 : FVec Ideal S256 .f32) (v21 : FVec Ideal S2048 .f32) (v47 v81 v82 : FVec Ideal S256x2048 .f32)
    (u : Fin 1) (p : Fin 256) (d : Fin 64) :
    k0_pay1 v13 v15 v21 v47 v81 v82 (ix3 u p d)
      = ∑ k : Fin 2048, Ideal.div (scoreMat v15 v21 v47 v81 v82 (ix2 p k))
          (max (Ideal.sqrt (∑ k' : Fin 2048, scoreMat v15 v21 v47 v81 v82 (ix2 p k') * scoreMat v15 v21 v47 v81 v82 (ix2 p k'))) eps)
          * v13 (ix2 k d) := by
  rw [pay1_eq]
  refine (shapeCast_ab_1ab_apply _ _ u p d).trans ?_
  refine (av_apply _ _ p d).trans (Finset.sum_congr rfl fun k _ => ?_)
  show Ideal.div (scoreMat v15 v21 v47 v81 v82 (ix2 p k))
      ((broadcastTo S256x2048 (normCol (scoreMat v15 v21 v47 v81 v82)) broadcasts_S256x1_S256x2048) (ix2 p k)) * v13 (ix2 k d) = _
  rw [broadcastTo_a1_ab_apply, normCol_apply]

/-! ## One grid point is 256 rows of a head -/

section Head

variable (x0 x1 x2 : Vec Ideal S1x2048x64 .f32) (t0 t1 : Vec Ideal S1x256x64 .f32) (o : Fin 256 → Fin 2048)

/-- An entry of the tile's score matrix is the head's score of rows `o p`, `k`, in the kernel's spelling. -/
theorem score_entry (h0 : ∀ p e, rowsT t0 p e = rowsB x0 (o p) e) (h1 : ∀ p e, rowsT t1 p e = rowsB x1 (o p) e)
    (p : Fin 256) (k : Fin 2048) :
    scoreMat (k0_pay7 t0) (k0_pay10 x1) (k0_pay19 (k0_pay15 t0) (k0_pay16 x1))
        (k0_pay20 (k0_pay8 t1) (k0_pay9 x0) (k0_pay13 t0) (k0_pay14 x1) (k0_pay17 t1) (k0_pay18 x0))
        (k0_pay21 (k0_pay11 t0) (k0_pay12 x1)) (ix2 p k)
      = score (fun x => zero - x) c16 (fun y => y * c8inv) (fun q k => ∑ d : Fin 64, rowsB x1 q d * rowsB x0 k d)
          (Cert.Attn.sq (rowsB x0)) (Cert.Attn.sq (rowsB x1))
          (fun r d => rowsB x0 r d * Ideal.rsqrt (Cert.Attn.sq (rowsB x0) r))
          (fun r d => rowsB x1 r d * Ideal.rsqrt (Cert.Attn.sq (rowsB x1) r)) (o p) k := by
  rw [scoreMat_apply, pay20_apply, pay19_apply, pay21_apply, pay7_apply, pay10_apply, pay8_apply, pay9_apply]
  simp only [pay13_apply, pay14_apply, pay15_apply, pay16_apply, pay17_apply, pay18_apply, pay11_apply, pay12_apply, h0, h1]
  rfl

/-- Entry `(p, d)` of what the body stores is entry `(o p, d)` of the head. -/
theorem stored_entry (h0 : ∀ p e, rowsT t0 p e = rowsB x0 (o p) e) (h1 : ∀ p e, rowsT t1 p e = rowsB x1 (o p) e)
    (u : Fin 1) (p : Fin 256) (d : Fin 64) :
    k0_pay1 (k0_pay6 x2) (k0_pay7 t0) (k0_pay10 x1) (k0_pay19 (k0_pay15 t0) (k0_pay16 x1))
        (k0_pay20 (k0_pay8 t1) (k0_pay9 x0) (k0_pay13 t0) (k0_pay14 x1) (k0_pay17 t1) (k0_pay18 x0))
        (k0_pay21 (k0_pay11 t0) (k0_pay12 x1)) (ix3 u p d)
      = headK (rowsB x0) (rowsB x1) (rowsB x2) (o p) d := by
  rw [pay1_apply]
  simp only [score_entry x0 x1 t0 t1 o h0 h1, pay6_apply]
  rfl

end Head

end Cert.KernelIdeal.Pay
end
-- ==== Proof.Cover.lean ====
/-
  Which indices of the result array each grid point writes.

  The launch runs over a grid of 16 × 8 points. At the point with coordinates (t₀, t₁) the three input windows are the
  blocks [1, 2048, 64] at block index (t₀, 0, 0) of their [16, 2048, 64] arrays, and the output window is the block
  [1, 256, 64] at block index (t₀, t₁, 0) of the [16, 2048, 64] result array. A block of sizes (1, 256, 64) at block
  index (q₀, q₁, 0) holds the indices i with q₀ ≤ i₀ < q₀ + 1, 256·q₁ ≤ i₁ < 256·q₁ + 256 and 0 ≤ i₂ < 64. Every pair
  (q₀, q₁) with q₀ < 16 and q₁ < 8 is the block index of some point, so the index i lies in the block of the point whose
  block index is (i₀, i₁ / 256, 0); every point writes its block back. So the blocks cover the result array.
-/
import proofs.«166510_j82343112999027_1_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe

/-- The printed index maps, decided once over the 128 grid points. -/
theorem idx_facts : ∀ t : Fin cfg0.N,
    win0_0.index t (0 : Fin 3) = win0_3.index t (0 : Fin 3) ∧ win0_0.index t (1 : Fin 3) = 0 ∧ win0_0.index t (2 : Fin 3) = 0
  ∧ win0_1.index t (0 : Fin 3) = win0_3.index t (0 : Fin 3) ∧ win0_1.index t (1 : Fin 3) = 0 ∧ win0_1.index t (2 : Fin 3) = 0
  ∧ win0_2.index t (0 : Fin 3) = win0_3.index t (0 : Fin 3) ∧ win0_2.index t (1 : Fin 3) = 0 ∧ win0_2.index t (2 : Fin 3) = 0
  ∧ win0_3.index t (1 : Fin 3) = (grid0.coords t 1).val ∧ win0_3.index t (2 : Fin 3) = 0
  ∧ win0_3.index t (0 : Fin 3) ≤ 15 ∧ win0_3.index t (1 : Fin 3) ≤ 7 :=
  (by decide +kernel : ∀ t : Fin grid0.N, _)

/-- Every block index (q₀, q₁, 0) with q₀ < 16 and q₁ < 8 is the output window's at some grid point. -/
theorem idx_onto3 : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- An index of the result array is in point t's block iff each coordinate is in the block's range on its axis. -/
theorem mem_blk3 (t : Fin cfg0.N) (i : S16x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v3).slice (win0_3.rect t)).set ↔ _
  rw [View.set_slice_whole, Rect.mem_set_unit]
  exact Iff.rfl

/-- Every index of the result array, as a [16, 2048, 64] index, is in the block of a point that writes it back. -/
theorem cover3_idx (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto3 ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- Every index of the result array is in some point's block. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set :=
  cover3_idx i

end Cert.KernelIdeal.Cover

end
-- ==== Proof.KernelValue.lean ====
/-
  The array the kernel's launch leaves.

  The launch runs over 16 heads × 8 tiles. Point `(head, tile)` finds the head's three whole blocks staged — rows of
  the flattened [16, 2048, 64] copies of the arguments, and flattening puts head `(b, h)` of a [2, 8, 2048, 64]
  array at `8·b + h` — and writes back one [256, 64] block of the result at rows `256·tile …` of that head. By the
  previous module an entry of that block is the head's entry in the kernel's spelling, so every point writes back
  a block of ONE whole-array function `G3`, the flattened result; the blocks cover the result array; so after the
  last point the result array is `G3`.
-/
import proofs.«166510_j82343112999027_1_alg».proof.Proof.Spec
import proofs.«166510_j82343112999027_1_alg».proof.Proof.Body
import proofs.«166510_j82343112999027_1_alg».proof.Proof.Pay
import proofs.«166510_j82343112999027_1_alg».proof.Proof.Cover
import proofs.«166510_j82343112999027_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Attn Cert.KernelIdeal.Body Cert.KernelIdeal.Pay

variable (m : (ℓ : Loc nD τ sig) → Buf (Elt Ideal) ℓ)

/-- Flattening the two leading axes: head `bh` of the flat array is head `(bh / 8, bh % 8)`. -/
theorem flat_apply {α : Type} (X : S2x8x2048x64.Idx → α) (bh : Fin 16) (r : Fin 2048) (e : Fin 64) :
    shapeCast S16x2048x64 X shapeCasts_S2x8x2048x64_S16x2048x64 (ix3 bh r e)
      = X (ix4 (⟨bh.val / 8, by omega⟩ : Fin 2) (⟨bh.val % 8, by omega⟩ : Fin 8) r e) :=
  shapeCast_apply X _ _ _ (by
    rw [Shape.rowMajor_val_four, Shape.rowMajor_val_three]
    show ((bh.val / 8 * 8 + bh.val % 8) * 2048 + r.val) * 64 + e.val = (bh.val * 2048 + r.val) * 64 + e.val
    have h := Nat.div_add_mod bh.val 8
    have : bh.val / 8 * 8 + bh.val % 8 = bh.val := by omega
    rw [this])

/-- A tile's entry is the block's entry 256·tile rows further down. -/
theorem tile_apply (i : grid0.Coords) (x : Vec Ideal S1x2048x64 .f32) (p : Fin 256) (e : Fin 64)
    (hb : 256 * (i 1).val + p.val < 2048) :
    tile i x (ix3 (0 : Fin 1) p e) = x (ix3 (0 : Fin 1) (⟨256 * (i 1).val + p.val, hb⟩ : Fin 2048) e) := by
  unfold tile
  show x ((Rect.unit (s := S1x2048x64) (k0_off1 i) S1x256x64.size (k0_off1_inb i)).emb (ix3 (0 : Fin 1) p e)) = _
  refine congrArg x (funext fun a => Fin.ext ?_)
  rw [Rect.emb_apply]
  show k0_off1 i a + 1 * (ix3 (0 : Fin 1) p e a).val = _
  rw [k0_off1_eq i]
  match a with
  | ⟨0, _⟩ => rfl
  | ⟨1, _⟩ => show 256 * (i 1).val + 1 * p.val = 256 * (i 1).val + p.val; omega
  | ⟨2, _⟩ => show 0 + 1 * e.val = e.val; omega

/-- The flattened query array as the launch finds it. -/
theorem V_v0 (c : Dev nD) : (V m c main_v0 : S16x2048x64.Idx → EReal)
    = shapeCast S16x2048x64 (m ((c : Thread nD τ).loc main_arg0)) shapeCasts_S2x8x2048x64_S16x2048x64 := by
  show StableHlo.after hostOps0 (fun b => m (c, b)) (Proc.devRef .tc main_v0) = _
  after_results
  rfl

/-- A whole input block of head `win0_0.index t 0`, read at an index. -/
theorem iblk0_apply (c : Dev nD) (t : Fin cfg0.N) (r : Fin 2048) (e : Fin 64) (hd : Fin 16) (hhd : win0_0.index t (0 : Fin 3) = hd.val)
    (h1 : win0_0.index t (1 : Fin 3) = 0) (h2 : win0_0.index t (2 : Fin 3) = 0) :
    (iblk m c 0 t : S1x2048x64.Idx → EReal) (ix3 (0 : Fin 1) r e) = (V m c main_v0 : S16x2048x64.Idx → EReal) (ix3 hd r e) := by
  show (V m c main_v0 : S16x2048x64.Idx → EReal) (((cfg0.win 0).blk t).view.emb (ix3 (0 : Fin 1) r e)) = _
  refine congrArg (V m c main_v0 : S16x2048x64.Idx → EReal) (funext fun a => Fin.ext ?_)
  match a with
  | ⟨0, _⟩ => show win0_0.index t (0 : Fin 3) * 1 + 1 * 0 = hd.val; omega
  | ⟨1, _⟩ => show win0_0.index t (1 : Fin 3) * 2048 + 1 * r.val = r.val; omega
  | ⟨2, _⟩ => show win0_0.index t (2 : Fin 3) * 64 + 1 * e.val = e.val; omega

/-- The flattened key array as the launch finds it. -/
theorem V_v1 (c : Dev nD) : (V m c main_v1 : S16x2048x64.Idx → EReal)
    = shapeCast S16x2048x64 (m ((c : Thread nD τ).loc main_arg1)) shapeCasts_S2x8x2048x64_S16x2048x64 := by
  show StableHlo.after hostOps0 (fun b => m (c, b)) (Proc.devRef .tc main_v1) = _
  after_results
  rfl

/-- The flattened value array as the launch finds it. -/
theorem V_v2 (c : Dev nD) : (V m c main_v2 : S16x2048x64.Idx → EReal)
    = shapeCast S16x2048x64 (m ((c : Thread nD τ).loc main_arg2)) shapeCasts_S2x8x2048x64_S16x2048x64 := by
  show StableHlo.after hostOps0 (fun b => m (c, b)) (Proc.devRef .tc main_v2) = _
  after_results
  rfl

/-- The same for the key block. -/
theorem iblk1_apply (c : Dev nD) (t : Fin cfg0.N) (r : Fin 2048) (e : Fin 64) (hd : Fin 16) (hhd : win0_1.index t (0 : Fin 3) = hd.val)
    (h1 : win0_1.index t (1 : Fin 3) = 0) (h2 : win0_1.index t (2 : Fin 3) = 0) :
    (iblk m c 1 t : S1x2048x64.Idx → EReal) (ix3 (0 : Fin 1) r e) = (V m c main_v1 : S16x2048x64.Idx → EReal) (ix3 hd r e) := by
  show (V m c main_v1 : S16x2048x64.Idx → EReal) (((cfg0.win 1).blk t).view.emb (ix3 (0 : Fin 1) r e)) = _
  refine congrArg (V m c main_v1 : S16x2048x64.Idx → EReal) (funext fun a => Fin.ext ?_)
  match a with
  | ⟨0, _⟩ => show win0_1.index t (0 : Fin 3) * 1 + 1 * 0 = hd.val; omega
  | ⟨1, _⟩ => show win0_1.index t (1 : Fin 3) * 2048 + 1 * r.val = r.val; omega
  | ⟨2, _⟩ => show win0_1.index t (2 : Fin 3) * 64 + 1 * e.val = e.val; omega

/-- The same for the value block. -/
theorem iblk2_apply (c : Dev nD) (t : Fin cfg0.N) (r : Fin 2048) (e : Fin 64) (hd : Fin 16) (hhd : win0_2.index t (0 : Fin 3) = hd.val)
    (h1 : win0_2.index t (1 : Fin 3) = 0) (h2 : win0_2.index t (2 : Fin 3) = 0) :
    (iblk m c 2 t : S1x2048x64.Idx → EReal) (ix3 (0 : Fin 1) r e) = (V m c main_v2 : S16x2048x64.Idx → EReal) (ix3 hd r e) := by
  show (V m c main_v2 : S16x2048x64.Idx → EReal) (((cfg0.win 2).blk t).view.emb (ix3 (0 : Fin 1) r e)) = _
  refine congrArg (V m c main_v2 : S16x2048x64.Idx → EReal) (funext fun a => Fin.ext ?_)
  match a with
  | ⟨0, _⟩ => show win0_2.index t (0 : Fin 3) * 1 + 1 * 0 = hd.val; omega
  | ⟨1, _⟩ => show win0_2.index t (1 : Fin 3) * 2048 + 1 * r.val = r.val; omega
  | ⟨2, _⟩ => show win0_2.index t (2 : Fin 3) * 64 + 1 * e.val = e.val; omega

/-- Entry `(p, d)` of what a grid point stores is entry `(256·tile + p, d)` of the head built from its three blocks. -/
theorem bodyVal_entry (i : grid0.Coords) (hi : (i 1).val ≤ 7) (x0 x1 x2 : Vec Ideal S1x2048x64 .f32)
    (u : Fin 1) (p : Fin 256) (d : Fin 64) :
    bodyVal i x0 x1 x2 (ix3 u p d)
      = headK (rowsB x0) (rowsB x1) (rowsB x2) (⟨256 * (i 1).val + p.val, by have := p.isLt; omega⟩ : Fin 2048) d :=
  stored_entry x0 x1 x2 (tile i x0) (tile i x1) (fun p => (⟨256 * (i 1).val + p.val, by have := p.isLt; omega⟩ : Fin 2048))
    (fun p e => tile_apply i x0 p e _) (fun p e => tile_apply i x1 p e _) u p d

/-- The launch's result array, sixteen heads of 2048 rows: the result of the three argument arrays with the two
    leading axes flattened into one. -/
def G3 (c : Dev nD) : Buf (Elt Ideal) ((c : Thread nD τ).loc main_v3) :=
  shapeCast S16x2048x64
    (Cert.Attn.resultK (m ((c : Thread nD τ).loc main_arg0)) (m ((c : Thread nD τ).loc main_arg1)) (m ((c : Thread nD τ).loc main_arg2)))
    shapeCasts_S2x8x2048x64_S16x2048x64

/-- What grid point `t` writes back is block `t` of `G3`. -/
theorem flushed_eq (c : Dev nD) (t : Fin cfg0.N) :
    (dats m 0 c).flushed 3 t = ((cfg0.win 3).blk t).view.read (Elt Ideal) (G3 m c) := by
  obtain ⟨e00, e01, e02, e10, e11, e12, e20, e21, e22, e31, e32, b0, b1⟩ := Cover.idx_facts t
  show (cfg0.win 3).cut (grid0.coords t) ((dats m 0 c).after 3 t) = _
  rw [after0_3]
  unfold outsAt0
  rw [out_A]
  suffices h : ∀ y : S1x256x64.Idx, bodyVal (grid0.coords t) (iblk m c 0 t) (iblk m c 1 t) (iblk m c 2 t) y
      = (G3 m c : S16x2048x64.Idx → EReal) (((cfg0.win 3).blk t).view.emb y) from funext h
  intro y
  obtain ⟨u, p, d, rfl⟩ : ∃ (u : Fin 1) (p : Fin 256) (d : Fin 64), y = ix3 u p d := ⟨y 0, y 1, y 2, eq_ix3 y⟩
  have hhd : win0_3.index t (0 : Fin 3) < 16 := by omega
  have hrow : 256 * (grid0.coords t 1).val + p.val < 2048 := by have := p.isLt; omega
  have hi : (grid0.coords t 1).val ≤ 7 := by omega
  refine (bodyVal_entry (grid0.coords t) hi (iblk m c 0 t) (iblk m c 1 t) (iblk m c 2 t) u p d).trans ?_
  have hemb : ((cfg0.win 3).blk t).view.emb (ix3 u p d)
      = ix3 (⟨win0_3.index t (0 : Fin 3), hhd⟩ : Fin 16) (⟨256 * (grid0.coords t 1).val + p.val, hrow⟩ : Fin 2048) d :=
    funext fun a => Fin.ext (by
      have hu : u.val = 0 := by omega
      match a with
      | ⟨0, _⟩ => show win0_3.index t (0 : Fin 3) * 1 + 1 * u.val = win0_3.index t (0 : Fin 3); omega
      | ⟨1, _⟩ => show win0_3.index t (1 : Fin 3) * 256 + 1 * p.val = 256 * (grid0.coords t 1).val + p.val; omega
      | ⟨2, _⟩ => show win0_3.index t (2 : Fin 3) * 64 + 1 * d.val = d.val; omega)
  rw [hemb]
  unfold G3
  rw [flat_apply]
  unfold resultK
  have hr0 : rowsB (iblk m c 0 t) = rows4 (m ((c : Thread nD τ).loc main_arg0))
      (⟨win0_3.index t (0 : Fin 3) / 8, by omega⟩ : Fin 2) (⟨win0_3.index t (0 : Fin 3) % 8, by omega⟩ : Fin 8) :=
    funext fun r => funext fun e => by
      show (iblk m c 0 t : S1x2048x64.Idx → EReal) (ix3 (0 : Fin 1) r e) = _
      rw [iblk0_apply m c t r e (⟨win0_3.index t (0 : Fin 3), hhd⟩ : Fin 16) e00 e01 e02, V_v0, flat_apply]
      rfl
  have hr1 : rowsB (iblk m c 1 t) = rows4 (m ((c : Thread nD τ).loc main_arg1))
      (⟨win0_3.index t (0 : Fin 3) / 8, by omega⟩ : Fin 2) (⟨win0_3.index t (0 : Fin 3) % 8, by omega⟩ : Fin 8) :=
    funext fun r => funext fun e => by
      show (iblk m c 1 t : S1x2048x64.Idx → EReal) (ix3 (0 : Fin 1) r e) = _
      rw [iblk1_apply m c t r e (⟨win0_3.index t (0 : Fin 3), hhd⟩ : Fin 16) e10 e11 e12, V_v1, flat_apply]
      rfl
  have hr2 : rowsB (iblk m c 2 t) = rows4 (m ((c : Thread nD τ).loc main_arg2))
      (⟨win0_3.index t (0 : Fin 3) / 8, by omega⟩ : Fin 2) (⟨win0_3.index t (0 : Fin 3) % 8, by omega⟩ : Fin 8) :=
    funext fun r => funext fun e => by
      show (iblk m c 2 t : S1x2048x64.Idx → EReal) (ix3 (0 : Fin 1) r e) = _
      rw [iblk2_apply m c t r e (⟨win0_3.index t (0 : Fin 3), hhd⟩ : Fin 16) e20 e21 e22, V_v2, flat_apply]
      rfl
  rw [hr0, hr1, hr2]

/-- After the last grid point the launch's result array holds `G3`: every index is in some point's block. -/
theorem final3 (c : Dev nD) : (dats m 0 c).arrAt 3 cfg0.N = G3 m c :=
  (dats m 0 c).arrAt_eq_of_cover 3 (G3 m c) (fun t _ => flushed_eq m c t) (Cover.cover3 c)

end Cert.KernelIdeal.KValue
end
-- ==== Proof.KernelRun.lean ====
/-
  The kernel's program run from any memory: the three reshapes of the arguments, the launch, and the reshape of the
  launch's result back to [2, 8, 2048, 64].

  The launch leaves in its result array the result of the three argument arrays with the two leading axes flattened
  into one; the last reshape splits that axis again, and a reshape there and back is the identity, so the program's
  result is `resultK` of the arguments. No operation writes an argument array.
-/
import proofs.«166510_j82343112999027_1_alg».proof.Proof.KernelValue

noncomputable section

namespace Cert.KernelIdeal.KRun

open Cert.KernelIdeal Cert.KernelIdeal.Gen Idealize.ShloMosaic Idealize.ShloMosaic.TcCoe Idealize.SL.Sem

variable (m : (ℓ : Loc nD τ sig) → Buf (Elt Ideal) ℓ)

/-- What the reshape after the launch leaves in the program's result: the launch's result array, which is the result of
    the arguments with the two leading axes flattened, with that axis split again. -/
theorem tail4 (c : Dev nD) :
    Pipeline.afterTail₀ cfgs (dats m) 0 (V0 m) [hostOps1] c main_v4
      = Cert.Attn.resultK (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3) = KValue.G3 m c :=
    (Pipeline.withArrays_arr spec0 launch0.win.arr_inj c _ _ 3).trans (KValue.final3 m c)
  rw [e]
  exact shapeCast_shapeCast _ _ _

/-- The program's run: its result is `resultK` of the three argument arrays, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
        = Cert.Attn.resultK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefValue.lean ====
/-
  The reference program, read index by index at the ideal instance.

  Every operation of the reference is read at an index whose coordinates are named: head `(b, h)`, rows `q`, `k`,
  feature `d`. The row sums of squares are `sq` of the head's rows; the rows divided by their norms, their logistic
  images and the four inner products follow; the sum of the two gated exponentials and the magnitude term is `score`
  with the reference's parameters; the last two operations, the division of each score row by the larger of its
  Euclidean norm and ε and the product with the values, are `attend`.
-/
import proofs.«166510_j82343112999027_1_alg».proof.Proof.Spec
import proofs.«166510_j82343112999027_1_alg».proof.Proof.Gen.ReferenceIdeal.Read

noncomputable section

namespace Cert.Attn.Ref

open Idealize.ShloMosaic Idealize.ShloMosaic.ValueIdx Cert.ReferenceIdeal Cert.ReferenceIdeal.Read

/-- A [2, 8, 2048, 64] argument array at the ideal instance. -/
abbrev Arr := (⟨Cert.ReferenceIdeal.S2x8x2048x64, .f32⟩ : BufTy).Contents (Elt Ideal)

/-- The rows of a head divided by their Euclidean norms. -/
abbrev nrm (X : Rows) : Rows := fun r d => Ideal.div (X r d) (Ideal.sqrt (sq X r))

/-- The score matrix of a head: `score` with the negation, the divisor `2 · √64`, the quotient by `√64` and the
    cross inner product `⟨Q k, K q⟩`. -/
abbrev scoreR (Q K : Rows) : Fin 2048 → Fin 2048 → EReal :=
  score (fun x => -x) (two * Ideal.sqrt c64) (fun y => Ideal.div y (Ideal.sqrt c64))
    (fun q k => ∑ d : Fin 64, Q k d * K q d) (sq Q) (sq K) (nrm Q) (nrm K)

/-- Two rank-4 indices with the same four coordinates are equal. -/
local macro "idx4" : tactic =>
  `(tactic| (funext a; match a with | ⟨0, _⟩ => rfl | ⟨1, _⟩ => rfl | ⟨2, _⟩ => rfl | ⟨3, _⟩ => rfl))
/-- Two rank-3 indices with the same three coordinates are equal. -/
local macro "idx3" : tactic =>
  `(tactic| (funext a; match a with | ⟨0, _⟩ => rfl | ⟨1, _⟩ => rfl | ⟨2, _⟩ => rfl))

/-- The word of `1.0` denotes `1`. -/
theorem one_eq : one = 1 := by
  simp [Ideal.ofBits, Ideal.ieee, -EReal.coe_mul]; norm_num

/-- `1 / (1 + e^(−x))` is the logistic function. -/
theorem logistic_eq (x : EReal) : Ideal.div one (one + Ideal.exp (-x)) = Ideal.logistic x := by
  unfold Ideal.logistic
  rw [one_eq]

variable (x0 x1 x2 : Arr) (b : Fin 2) (h : Fin 8) (q k : Fin 2048) (d : Fin 64)

/-! ## Row sums of squares -/

/-- The query's row sums of squares. -/
theorem v3_at : val_main_v3 (F := Ideal) x0 (ix3 b h q) = sq (rows4 x0 b h) q := by
  rw [val_main_v3_apply]
  simp only [val_main_cst_1_apply, val_main_v2_apply, Ideal.ofBits_def, Ideal.ofBits_zero_f32, zero_add, Ideal.mulf_def]
  unfold sq rows4
  refine Finset.sum_congr rfl fun d _ => ?_
  rw [show idx_main_v3 (ix3 b h q) d = ix4 b h q d by idx4]

/-- The keys' row sums of squares. -/
theorem v5_at : val_main_v5 (F := Ideal) x1 (ix3 b h q) = sq (rows4 x1 b h) q := by
  rw [val_main_v5_apply]
  simp only [val_main_cst_2_apply, val_main_v4_apply, Ideal.ofBits_def, Ideal.ofBits_zero_f32, zero_add, Ideal.mulf_def]
  unfold sq rows4
  refine Finset.sum_congr rfl fun d _ => ?_
  rw [show idx_main_v5 (ix3 b h q) d = ix4 b h q d by idx4]

/-- The same sum inside the query's norm. -/
theorem call0_v1_at : val_main_call0_v1 (F := Ideal) x0 (ix3 b h q) = sq (rows4 x0 b h) q := by
  rw [val_main_call0_v1_apply]
  simp only [val_main_call0_cst_apply, val_main_call0_v0_apply, Ideal.ofBits_def, Ideal.ofBits_zero_f32, zero_add,
    Ideal.mulf_def]
  unfold sq rows4
  refine Finset.sum_congr rfl fun d _ => ?_
  rw [show idx_main_call0_v1 (ix3 b h q) d = ix4 b h q d by idx4]

/-- The same sum inside the keys' norm. -/
theorem call1_v1_at : val_main_call1_v1 (F := Ideal) x1 (ix3 b h q) = sq (rows4 x1 b h) q := by
  rw [val_main_call1_v1_apply]
  simp only [val_main_call1_cst_apply, val_main_call1_v0_apply, Ideal.ofBits_def, Ideal.ofBits_zero_f32, zero_add,
    Ideal.mulf_def]
  unfold sq rows4
  refine Finset.sum_congr rfl fun d _ => ?_
  rw [show idx_main_call1_v1 (ix3 b h q) d = ix4 b h q d by idx4]

/-! ## The squared distances, transposed -/

theorem v7_at (z : Fin 1) : val_main_v7 (F := Ideal) x0 (ix4 b h q z) = sq (rows4 x0 b h) q := by
  rw [val_main_v7_apply, show idx_main_v7 (ix4 b h q z) = ix3 b h q by idx3, v3_at]

theorem v9_at : val_main_v9 (F := Ideal) x0 (ix4 b h q k) = sq (rows4 x0 b h) q := by
  rw [val_main_v9_apply, show idx_main_v9 (ix4 b h q k) = ix4 b h q (⟨0, Nat.one_pos⟩ : Fin 1) by idx4, v7_at]

theorem v8_at (z : Fin 1) : val_main_v8 (F := Ideal) x1 (ix4 b h z k) = sq (rows4 x1 b h) k := by
  rw [val_main_v8_apply, show idx_main_v8 (ix4 b h z k) = ix3 b h k by idx3, v5_at]

theorem v10_at : val_main_v10 (F := Ideal) x1 (ix4 b h q k) = sq (rows4 x1 b h) k := by
  rw [val_main_v10_apply, show idx_main_v10 (ix4 b h q k) = ix4 b h (⟨0, Nat.one_pos⟩ : Fin 1) k by idx4, v8_at]

/-- The inner products of query rows with key rows. -/
theorem v6_at : val_main_v6 (F := Ideal) x0 x1 (ix4 b h q k)
    = ∑ d : Fin 64, rows4 x0 b h q d * rows4 x1 b h k d := by
  rw [val_main_v6_apply]
  unfold rows4
  refine Finset.sum_congr rfl fun d _ => ?_
  rw [show lidx_main_v6 (ix4 b h q k) d = ix4 b h q d by idx4, show ridx_main_v6 (ix4 b h q k) d = ix4 b h k d by idx4]

/-- The divisor `2 · √64`. -/
theorem v1_at (i : S_.Idx) : val_main_v1 (F := Ideal) i = two * Ideal.sqrt c64 := by
  simp only [val_main_v1_apply, val_main_cst_0_apply, val_main_v0_apply, val_main_cst_apply, Ideal.ofBits_def,
    Ideal.hostUnary_sqrt_def, Ideal.mulf_def]

/-- Minus the distance of query row `q` and key row `k`, by the norm expansion, over `2 · √64`. -/
theorem v20_at : val_main_v20 (F := Ideal) x0 x1 (ix4 b h q k)
    = Ideal.div (-(Ideal.sqrt (max ((sq (rows4 x0 b h) q + sq (rows4 x1 b h) k)
        - two * ∑ d : Fin 64, rows4 x0 b h q d * rows4 x1 b h k d) zero))) (two * Ideal.sqrt c64) := by
  simp only [val_main_v20_apply, val_main_v18_apply, val_main_v17_apply, val_main_v16_apply, val_main_v14_apply,
    val_main_v11_apply, val_main_v13_apply, val_main_v12_apply, val_main_v15_apply, val_main_v19_apply,
    val_main_cst_3_apply, val_main_cst_4_apply, v1_at, v9_at, v10_at, v6_at,
    Ideal.hostDivf_def, Ideal.hostNegf_def, Ideal.negf_def, Ideal.hostUnary_sqrt_def, Ideal.maximumf_def,
    Ideal.subf_def, Ideal.addf_def, Ideal.mulf_def, Ideal.ofBits_def]

/-- The transposed layout: entry `(q, k)` is the distance of query row `k` and key row `q`. -/
theorem v21_at : val_main_v21 (F := Ideal) x0 x1 (ix4 b h q k)
    = Ideal.div (-(Ideal.sqrt (max ((sq (rows4 x0 b h) k + sq (rows4 x1 b h) q)
        - two * ∑ d : Fin 64, rows4 x0 b h k d * rows4 x1 b h q d) zero))) (two * Ideal.sqrt c64) := by
  rw [val_main_v21_apply, show idx_main_v21 (ix4 b h q k) = ix4 b h k q by idx4, v20_at]

/-! ## The rows divided by their norms -/

theorem call0_v2_at (z : Fin 1) : val_main_call0_v2 (F := Ideal) x0 (ix4 b h q z) = sq (rows4 x0 b h) q := by
  rw [val_main_call0_v2_apply, show idx_main_call0_v2 (ix4 b h q z) = ix3 b h q by idx3, call0_v1_at]

theorem v23_at : val_main_v23 (F := Ideal) x0 (ix4 b h q d) = Ideal.sqrt (sq (rows4 x0 b h) q) := by
  rw [val_main_v23_apply, show idx_main_v23 (ix4 b h q d) = ix4 b h q (⟨0, Nat.one_pos⟩ : Fin 1) by idx4,
    val_main_v22_apply, call0_v2_at, Ideal.hostUnary_sqrt_def]

/-- The query rows divided by their norms. -/
theorem v24_at : val_main_v24 (F := Ideal) x0 (ix4 b h q d) = nrm (rows4 x0 b h) q d := by
  rw [val_main_v24_apply, v23_at, Ideal.hostDivf_def]
  rfl

theorem call1_v2_at (z : Fin 1) : val_main_call1_v2 (F := Ideal) x1 (ix4 b h q z) = sq (rows4 x1 b h) q := by
  rw [val_main_call1_v2_apply, show idx_main_call1_v2 (ix4 b h q z) = ix3 b h q by idx3, call1_v1_at]

theorem v26_at : val_main_v26 (F := Ideal) x1 (ix4 b h q d) = Ideal.sqrt (sq (rows4 x1 b h) q) := by
  rw [val_main_v26_apply, show idx_main_v26 (ix4 b h q d) = ix4 b h q (⟨0, Nat.one_pos⟩ : Fin 1) by idx4,
    val_main_v25_apply, call1_v2_at, Ideal.hostUnary_sqrt_def]

/-- The key rows divided by their norms. -/
theorem v27_at : val_main_v27 (F := Ideal) x1 (ix4 b h q d) = nrm (rows4 x1 b h) q d := by
  rw [val_main_v27_apply, v26_at, Ideal.hostDivf_def]
  rfl

/-- The cosines: inner products of the normalised rows. -/
theorem v28_at : val_main_v28 (F := Ideal) x0 x1 (ix4 b h q k)
    = dotRows (nrm (rows4 x0 b h)) (nrm (rows4 x1 b h)) q k := by
  rw [val_main_v28_apply]
  unfold dotRows
  refine Finset.sum_congr rfl fun d _ => ?_
  rw [show lidx_main_v28 (ix4 b h q k) d = ix4 b h q d by idx4, show ridx_main_v28 (ix4 b h q k) d = ix4 b h k d by idx4,
    v24_at, v27_at]

/-- The periodic term: `−2 · sin² (π · √(max (2 − 2·cos) 0) / 1)` over `√64`. -/
theorem v46_at : val_main_v46 (F := Ideal) x0 x1 (ix4 b h q k)
    = Ideal.div (mtwo *
        (Ideal.sin (Ideal.div (pi32 * Ideal.sqrt (max (two - two * dotRows (nrm (rows4 x0 b h)) (nrm (rows4 x1 b h)) q k) zero)) one)
          * Ideal.sin (Ideal.div (pi32 * Ideal.sqrt (max (two - two * dotRows (nrm (rows4 x0 b h)) (nrm (rows4 x1 b h)) q k) zero)) one)))
      (Ideal.sqrt c64) := by
  simp only [val_main_v46_apply, val_main_v45_apply, val_main_v44_apply, val_main_v43_apply, val_main_v42_apply,
    val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_cst_5_apply, val_main_cst_6_apply,
    val_main_cst_7_apply, val_main_cst_8_apply, val_main_cst_9_apply, val_main_cst_10_apply, val_main_cst_11_apply,
    v28_at, Ideal.hostDivf_def, Ideal.hostUnary_sqrt_def, Ideal.hostUnary_sin_def, Ideal.maximumf_def,
    Ideal.subf_def, Ideal.mulf_def, Ideal.ofBits_def]

/-! ## The logistic gates -/

theorem v52_at : val_main_v52 (F := Ideal) x0 (ix4 b h q d) = Ideal.logistic (nrm (rows4 x0 b h) q d) := by
  simp only [val_main_v52_apply, val_main_v51_apply, val_main_v50_apply, val_main_v49_apply, val_main_v48_apply,
    val_main_v47_apply, val_main_cst_12_apply, val_main_cst_13_apply, v24_at, Ideal.hostDivf_def,
    Ideal.hostUnary_exp_def, Ideal.hostNegf_def, Ideal.negf_def, Ideal.addf_def, Ideal.ofBits_def]
  exact logistic_eq _

theorem v58_at : val_main_v58 (F := Ideal) x1 (ix4 b h q d) = Ideal.logistic (nrm (rows4 x1 b h) q d) := by
  simp only [val_main_v58_apply, val_main_v57_apply, val_main_v56_apply, val_main_v55_apply, val_main_v54_apply,
    val_main_v53_apply, val_main_cst_14_apply, val_main_cst_15_apply, v27_at, Ideal.hostDivf_def,
    Ideal.hostUnary_exp_def, Ideal.hostNegf_def, Ideal.negf_def, Ideal.addf_def, Ideal.ofBits_def]
  exact logistic_eq _

/-- The inner products of the gates. -/
theorem v59_at : val_main_v59 (F := Ideal) x0 x1 (ix4 b h q k)
    = ∑ d : Fin 64, Ideal.logistic (nrm (rows4 x0 b h) q d) * Ideal.logistic (nrm (rows4 x1 b h) k d) := by
  rw [val_main_v59_apply]
  refine Finset.sum_congr rfl fun d _ => ?_
  rw [show lidx_main_v59 (ix4 b h q k) d = ix4 b h q d by idx4, show ridx_main_v59 (ix4 b h q k) d = ix4 b h k d by idx4,
    v52_at, v58_at]

theorem v61_at : val_main_v61 (F := Ideal) x0 (ix4 b h q d) = one - Ideal.logistic (nrm (rows4 x0 b h) q d) := by
  simp only [val_main_v61_apply, val_main_v60_apply, val_main_cst_16_apply, v52_at, Ideal.subf_def, Ideal.ofBits_def]

theorem v63_at : val_main_v63 (F := Ideal) x1 (ix4 b h q d) = one - Ideal.logistic (nrm (rows4 x1 b h) q d) := by
  simp only [val_main_v63_apply, val_main_v62_apply, val_main_cst_17_apply, v58_at, Ideal.subf_def, Ideal.ofBits_def]

/-- The inner products of the complementary gates. -/
theorem v64_at : val_main_v64 (F := Ideal) x0 x1 (ix4 b h q k)
    = ∑ d : Fin 64, (one - Ideal.logistic (nrm (rows4 x0 b h) q d)) * (one - Ideal.logistic (nrm (rows4 x1 b h) k d)) := by
  rw [val_main_v64_apply]
  refine Finset.sum_congr rfl fun d _ => ?_
  rw [show lidx_main_v64 (ix4 b h q k) d = ix4 b h q d by idx4, show ridx_main_v64 (ix4 b h q k) d = ix4 b h k d by idx4,
    v61_at, v63_at]

/-! ## The magnitude term and the score -/

theorem v70_at (z : Fin 1) : val_main_v70 (F := Ideal) x0 (ix4 b h q z) = sq (rows4 x0 b h) q := by
  rw [val_main_v70_apply, show idx_main_v70 (ix4 b h q z) = ix3 b h q by idx3, v3_at]

theorem v72_at : val_main_v72 (F := Ideal) x0 (ix4 b h q k) = sq (rows4 x0 b h) q := by
  rw [val_main_v72_apply, show idx_main_v72 (ix4 b h q k) = ix4 b h q (⟨0, Nat.one_pos⟩ : Fin 1) by idx4, v70_at]

theorem v71_at (z : Fin 1) : val_main_v71 (F := Ideal) x1 (ix4 b h z k) = sq (rows4 x1 b h) k := by
  rw [val_main_v71_apply, show idx_main_v71 (ix4 b h z k) = ix3 b h k by idx3, v5_at]

theorem v73_at : val_main_v73 (F := Ideal) x1 (ix4 b h q k) = sq (rows4 x1 b h) k := by
  rw [val_main_v73_apply, show idx_main_v73 (ix4 b h q k) = ix4 b h (⟨0, Nat.one_pos⟩ : Fin 1) k by idx4, v71_at]

/-- The score before the row normalisation. -/
theorem v77_at : val_main_v77 (F := Ideal) x0 x1 (ix4 b h q k) = scoreR (rows4 x0 b h) (rows4 x1 b h) q k := by
  simp only [val_main_v77_apply, val_main_v76_apply, val_main_v75_apply, val_main_v74_apply, val_main_v69_apply,
    val_main_v68_apply, val_main_v67_apply, val_main_v66_apply, val_main_v65_apply, v1_at, v21_at, v46_at, v59_at,
    v64_at, v72_at, v73_at, Ideal.hostDivf_def, Ideal.hostUnary_exp_def, Ideal.addf_def, Ideal.mulf_def]
  rfl

/-! ## The row normalisation and the product with the values -/

/-- A score row's sum of squares. -/
theorem v79_at : val_main_v79 (F := Ideal) x0 x1 (ix3 b h q)
    = ∑ k' : Fin 2048, scoreR (rows4 x0 b h) (rows4 x1 b h) q k' * scoreR (rows4 x0 b h) (rows4 x1 b h) q k' := by
  rw [val_main_v79_apply]
  simp only [val_main_cst_18_apply, Ideal.ofBits_def, Ideal.ofBits_zero_f32, zero_add]
  refine Finset.sum_congr rfl fun k' _ => ?_
  rw [show idx_main_v79 (ix3 b h q) k' = ix4 b h q k' by idx4, val_main_v78_apply, v77_at, Ideal.mulf_def]

theorem v80_at (z : Fin 1) : val_main_v80 (F := Ideal) x0 x1 (ix4 b h q z)
    = ∑ k' : Fin 2048, scoreR (rows4 x0 b h) (rows4 x1 b h) q k' * scoreR (rows4 x0 b h) (rows4 x1 b h) q k' := by
  rw [val_main_v80_apply, show idx_main_v80 (ix4 b h q z) = ix3 b h q by idx3, v79_at]

/-- The larger of a score row's Euclidean norm and ε. -/
theorem v83_at (z : Fin 1) : val_main_v83 (F := Ideal) x0 x1 (ix4 b h q z)
    = max (Ideal.sqrt (∑ k' : Fin 2048,
        scoreR (rows4 x0 b h) (rows4 x1 b h) q k' * scoreR (rows4 x0 b h) (rows4 x1 b h) q k')) eps := by
  simp only [val_main_v83_apply, val_main_v82_apply, val_main_v81_apply, val_main_cst_19_apply, v80_at,
    Ideal.maximumf_def, Ideal.hostUnary_sqrt_def, Ideal.ofBits_def]

theorem v84_at : val_main_v84 (F := Ideal) x0 x1 (ix4 b h q k)
    = max (Ideal.sqrt (∑ k' : Fin 2048,
        scoreR (rows4 x0 b h) (rows4 x1 b h) q k' * scoreR (rows4 x0 b h) (rows4 x1 b h) q k')) eps := by
  rw [val_main_v84_apply, show idx_main_v84 (ix4 b h q k) = ix4 b h q (⟨0, Nat.one_pos⟩ : Fin 1) by idx4, v83_at]

/-- The normalised score. -/
theorem v85_at : val_main_v85 (F := Ideal) x0 x1 (ix4 b h q k)
    = Ideal.div (scoreR (rows4 x0 b h) (rows4 x1 b h) q k)
        (max (Ideal.sqrt (∑ k' : Fin 2048,
          scoreR (rows4 x0 b h) (rows4 x1 b h) q k' * scoreR (rows4 x0 b h) (rows4 x1 b h) q k')) eps) := by
  rw [val_main_v85_apply, v77_at, v84_at, Ideal.hostDivf_def]

/-- The result: the normalised scores multiplied into the values. -/
theorem v86_at : val_main_v86 (F := Ideal) x0 x1 x2 (ix4 b h q d)
    = attend (scoreR (rows4 x0 b h) (rows4 x1 b h)) (rows4 x2 b h) q d := by
  rw [val_main_v86_apply]
  unfold attend
  refine Finset.sum_congr rfl fun k _ => ?_
  rw [show lidx_main_v86 (ix4 b h q d) k = ix4 b h q k by idx4, show ridx_main_v86 (ix4 b h q d) k = ix4 b h k d by idx4,
    v85_at]
  rfl

/-- The reference's result, read index by index at the ideal instance, is `resultR` of the three argument arrays. -/
theorem ref_eq (x0 x1 x2 : (⟨Cert.ReferenceIdeal.S2x8x2048x64, .f32⟩ : BufTy).Contents (Elt Ideal)) :
    Cert.ReferenceIdeal.Read.val_main_v86 (F := Ideal) x0 x1 x2 = Cert.Attn.resultR x0 x1 x2 := by
  funext i
  obtain ⟨b, h, q, d, rfl⟩ : ∃ (b : Fin 2) (h : Fin 8) (q : Fin 2048) (d : Fin 64), i = ix4 b h q d :=
    ⟨i 0, i 1, i 2, i 3, eq_ix4 i⟩
  exact v86_at x0 x1 x2 b h q d

end Cert.Attn.Ref

end
-- ==== Proof.PreRows.lean ====
/-
  The precondition, read at the extended reals.

  Beside the finiteness of the three arrays, the precondition tests, for each of the first two [2, 8, 2048, 64] arrays
  and for each row `(b, hd, r)`, that the sum over the 64 features of the squares of the row's entries — taken from the
  zero word — is greater than zero, and joins all the tests by "and". Where the whole conjunction answers 1, every one of
  its tests answers 1; on the extended reals the test "greater than zero" answers 1 exactly when the number is positive,
  the zero word is the number 0, and the sum over the last axis from 0 is the row's sum of squares. So every row of the
  first two arrays has a positive sum of squares.
-/
import proofs.«166510_j82343112999027_1_alg».proof.Proof.Spec
import proofs.«166510_j82343112999027_1_alg».proof.Pre_finite_inputs
import Idealize.ShloMosaic.Lib.ReduceAll

noncomputable section

namespace Cert.Attn.Pre

open Idealize.ShloMosaic Cert.Pre_finite_inputs

/-- A one-bit word built from a truth value is 1 exactly when the value is true. -/
private theorem ofBool_eq_one (b : Bool) : BitVec.ofBool b = 1#1 ↔ b = true := by cases b <;> decide

/-- On the extended reals the test "greater than" answers 1 only when the order says so. -/
private theorem cmp_ogt_eq_one {x y : EReal} (e : Ideal.cmp .ogt x y = 1#1) : y < x := by
  unfold Ideal.cmp at e
  rw [ofBool_eq_one] at e
  exact of_decide_eq_true e

/-- One row's test: where the sum over the last axis of the squares, started at the zero word, is found greater than the
    broadcast zero word at row `(b, hd, r)`, that row's sum of squares is positive. -/
theorem row_pos [Facts] (x : FVec Ideal S2x8x2048x64 .f32) (b : Fin 2) (hd : Fin 8) (r : Fin 2048)
    (e : cmpf .ogt
          (Host.reduceAdd (F := Ideal) (mulf x x) (constant (F := Ideal) S_ .f32 0x00000000#32)
            Facts.reducesTo_S2x8x2048x64_S2x8x2048_d3 Facts.h_S_)
          (broadcastInDim S2x8x2048 ![] Facts.bcast_S_S2x8x2048 (constant (F := Ideal) S_ .f32 0x00000000#32))
          (ValueIdx.ix3 b hd r) = 1#1) :
    0 < Cert.Attn.sq (Cert.Attn.rows4 x b hd) r := by
  rw [ValueIdx.cmpf_apply, Ideal.cmpf_def] at e
  have hlt := cmp_ogt_eq_one e
  -- the broadcast of the zero word reads 0 at every row
  have hz : broadcastInDim S2x8x2048 ![] Facts.bcast_S_S2x8x2048 (constant (F := Ideal) S_ .f32 0x00000000#32)
      (ValueIdx.ix3 b hd r) = 0 := by
    unfold broadcastInDim
    rw [ValueIdx.constant_apply]
    exact Ideal.ofBits_zero_f32
  -- the sum over the last axis reads the initial value, which is 0, plus the sum over the 64 features
  have hs : Host.reduceAdd (F := Ideal) (mulf x x) (constant (F := Ideal) S_ .f32 0x00000000#32)
      Facts.reducesTo_S2x8x2048x64_S2x8x2048_d3 Facts.h_S_ (ValueIdx.ix3 b hd r)
      = ∑ d : Fin 64, x (ValueIdx.ix4 b hd r d) * x (ValueIdx.ix4 b hd r d) := by
    simp only [Host.reduceAdd, Ideal.hostReduceAdd_def]
    rw [Ideal.hostReduceAdd_single Facts.reducesTo_S2x8x2048x64_S2x8x2048_d3 (by decide)]
    rw [ValueIdx.constant_apply, Ideal.ofBits_zero_f32, zero_add]
    refine Finset.sum_congr rfl fun k _ => ?_
    rw [ValueIdx.mulf_apply]
    -- the index inserted at the last axis is (b, hd, r, k), coordinate by coordinate
    refine congrArg₂ (· * ·) ?_ ?_ <;>
      exact congrArg x (funext fun a => Fin.ext (by
        match a with | ⟨0, _⟩ => rfl | ⟨1, _⟩ => rfl | ⟨2, _⟩ => rfl | ⟨3, _⟩ => rfl))
  rw [hz, hs] at hlt
  exact hlt

/-- The precondition at the extended reals: every row of the first two arrays has a positive sum of squares. -/
theorem rows_pos [Cert.Pre_finite_inputs.Facts]
    (x0 x1 x2 : FVec Ideal Cert.Pre_finite_inputs.S2x8x2048x64 .f32)
    (h : Cert.Pre_finite_inputs.fn (F := Ideal) x0 x1 x2 = fun _ => 1#1) :
    (∀ (b : Fin 2) (hd : Fin 8) (r : Fin 2048), 0 < Cert.Attn.sq (Cert.Attn.rows4 x0 b hd) r)
    ∧ (∀ (b : Fin 2) (hd : Fin 8) (r : Fin 2048), 0 < Cert.Attn.sq (Cert.Attn.rows4 x1 b hd) r) := by
  -- the scalar shape has exactly one index
  haveI : Subsingleton S_.Idx := ⟨fun _ _ => funext fun d => d.elim0⟩
  have e := congrFun h ValueIdx.ix0
  dsimp only [fn, fn_part1, andi] at e
  -- a conjunction of two one-bit words is 1 only when both are
  obtain ⟨e', e1⟩ := IntOp.andi_eq_one.1 e
  obtain ⟨-, e0⟩ := IntOp.andi_eq_one.1 e'
  -- a conjunction over every row that answers 1 had a 1 at every row
  exact ⟨fun b hd r => row_pos x0 b hd r (Host.reduce_andi_all _ _ _ _ _ e0 (ValueIdx.ix3 b hd r)),
    fun b hd r => row_pos x1 b hd r (Host.reduce_andi_all _ _ _ _ _ e1 (ValueIdx.ix3 b hd r))⟩

end Cert.Attn.Pre

end
-- ==== Proof.lean ====
/-
  The certificate's five claims. Each of the three programs, run from any memory of which the precondition holds,
  terminates without a fault and leaves its three argument arrays as they were. The idealized kernel is the kernel's
  own text read at the extended reals: no operation was rewritten, so that claim is `True`. At the extended reals the
  idealized kernel and the reference, run from memories that agree on the arguments, end with the same result: the
  kernel's is `resultK` of the arguments and the reference's is `resultR`, and the two agree wherever every row of the
  first two arrays has a positive sum of squares, which the precondition states.
-/
import proofs.«166510_j82343112999027_1_alg».proof.Defs
import proofs.«166510_j82343112999027_1_alg».proof.Proof.Gen.Kernel
import proofs.«166510_j82343112999027_1_alg».proof.Proof.Gen.Kernel.Skeleton
import proofs.«166510_j82343112999027_1_alg».proof.Proof.Gen.Kernel.Launch
import proofs.«166510_j82343112999027_1_alg».proof.Proof.Gen.Kernel.Points
import proofs.«166510_j82343112999027_1_alg».proof.Proof.Gen.Kernel.Frame
import proofs.«166510_j82343112999027_1_alg».proof.Proof.Gen.KernelIdeal
import proofs.«166510_j82343112999027_1_alg».proof.Proof.Gen.KernelIdeal.Skeleton
import proofs.«166510_j82343112999027_1_alg».proof.Proof.Gen.KernelIdeal.Launch
import proofs.«166510_j82343112999027_1_alg».proof.Proof.Gen.KernelIdeal.Points
import proofs.«166510_j82343112999027_1_alg».proof.Proof.Gen.KernelIdeal.Frame
import proofs.«166510_j82343112999027_1_alg».proof.Proof.Gen.ReferenceIdeal
import proofs.«166510_j82343112999027_1_alg».proof.Proof.Gen.ReferenceIdeal.Run
import proofs.«166510_j82343112999027_1_alg».proof.Proof.Gen.ReferenceIdeal.Read
import proofs.«166510_j82343112999027_1_alg».proof.Proof.Gen.Pre_finite_inputs
import proofs.«166510_j82343112999027_1_alg».proof.Proof.KernelRun
import proofs.«166510_j82343112999027_1_alg».proof.Proof.RefValue
import proofs.«166510_j82343112999027_1_alg».proof.Proof.PreRows
import Idealize.ShloMosaic.Adequacy
import Idealize.ShloMosaic.Init

noncomputable section

namespace Cert.Proof

open Idealize.ShloMosaic Idealize.SL.Sem Cert.Kernel

/-- The kernel runs and leaves its arguments unchanged. -/
theorem frame_Kernel : Cert.frame_Kernel := fun m ρ _ => Cert.Kernel.Gen.frame m ρ

/-- The idealized kernel runs and leaves its arguments unchanged. -/
theorem frame_KernelIdeal : Cert.frame_KernelIdeal := fun m ρ _ => Cert.KernelIdeal.Gen.frame m ρ

/-- The reference runs and leaves its arguments unchanged. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- At the extended reals the kernel's result is `resultK` of the arguments and the reference's is `resultR` of
    arguments that agree with them; the precondition gives every row of the first two arrays a positive sum of
    squares, where the two results are equal. -/
theorem algebraic : Cert.algebraic_KernelIdeal_ReferenceIdeal := by
  intro m ρ m' ρ' hpre hagree
  refine ⟨fun c => Cert.Attn.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨?_, (h c).2⟩)
    (Cert.ReferenceIdeal.Value.run (F := Ideal) m' ρ')
  have hp := Cert.Attn.Pre.rows_pos _ _ _ (hpre c)
  rw [(h c).1, Cert.ReferenceIdeal.Read.val_main_v86_eq, Cert.Attn.Ref.ref_eq, (hagree c).1, (hagree c).2.1,
    (hagree c).2.2]
  exact (Cert.Attn.resultK_eq_resultR _ _ _ hp.1 hp.2).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
